-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S2x2 : Shape := ⟨2, ![2, 2]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S2x2 : S_.BroadcastsInDim S2x2 (![] : Fin 0 → Fin S2x2.rank)
  reducesTo_S2x2_S_d0_1 : S2x2.ReducesTo [0, 1] S_

variable [Facts]

def fn {F : FTy → Type} [FloatOps F] (main_arg0 : FVec F S4x4096x4096 .f32) (main_arg1 : FVec F S2x2 .f32) (main_arg2 : FVec F S2x2 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S2x2 .f32 := Host.absf main_arg1
  let main_cst_0 : FVec F S_ .f32 := constant S_ .f32 0x7F800000#32
  let main_v5 : FVec F S2x2 .f32 := broadcastInDim S2x2 ![] bcast_S_S2x2 main_cst_0
  let main_v6 : IVec S2x2 1 := cmpf .olt main_v4 main_v5
  let main_c_1 : IVec S_ 1 := constantI S_ 1 1#1
  let main_v7 : IVec S_ 1 := (fun x v => Host.reduce IntOp.andi x v reducesTo_S2x2_S_d0_1 h_S_) main_v6 main_c_1
  let main_v8 : IVec S_ 1 := andi main_v3 main_v7
  let main_v9 : FVec F S2x2 .f32 := Host.absf main_arg2
  let main_cst_2 : FVec F S_ .f32 := constant S_ .f32 0x7F800000#32
  let main_v10 : FVec F S2x2 .f32 := broadcastInDim S2x2 ![] bcast_S_S2x2 main_cst_2
  let main_v11 : IVec S2x2 1 := cmpf .olt main_v9 main_v10
  let main_c_3 : IVec S_ 1 := constantI S_ 1 1#1
  let main_v12 : IVec S_ 1 := (fun x v => Host.reduce IntOp.andi x v reducesTo_S2x2_S_d0_1 h_S_) main_v11 main_c_3
  let main_v13 : IVec S_ 1 := andi main_v8 main_v12
  main_v13
-- ==== Kernel.lean ====
abbrev S4x4096x4096 : Shape := ⟨3, ![4, 4096, 4096]⟩
abbrev S2x2 : Shape := ⟨2, ![2, 2]⟩
abbrev S1x1 : Shape := ⟨2, ![1, 1]⟩
abbrev S_ : Shape := ⟨0, ![]⟩
abbrev S4x1x4096 : Shape := ⟨3, ![4, 1, 4096]⟩
abbrev S4x4098x4096 : Shape := ⟨3, ![4, 4098, 4096]⟩
abbrev S4x4098x4098 : Shape := ⟨3, ![4, 4098, 4098]⟩
abbrev S1x256x4096 : Shape := ⟨3, ![1, 256, 4096]⟩
abbrev S1x256x4098 : Shape := ⟨3, ![1, 256, 4098]⟩
abbrev S256x4096 : Shape := ⟨2, ![256, 4096]⟩
abbrev S256x1 : Shape := ⟨2, ![256, 1]⟩
abbrev S1x256x1 : Shape := ⟨3, ![1, 256, 1]⟩

abbrev nBuf : Space → Nat
  | .hbm => 23
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S2x2, .f32⟩
  | .hbm, ⟨2, _⟩ => ⟨S2x2, .f32⟩
  | .hbm, ⟨3, _⟩ => ⟨S1x1, .f32⟩
  | .hbm, ⟨4, _⟩ => ⟨S_, .f32⟩
  | .hbm, ⟨5, _⟩ => ⟨S1x1, .f32⟩
  | .hbm, ⟨6, _⟩ => ⟨S_, .f32⟩
  | .hbm, ⟨7, _⟩ => ⟨S4x1x4096, .f32⟩
  | .hbm, ⟨8, _⟩ => ⟨S4x1x4096, .f32⟩
  | .hbm, ⟨9, _⟩ => ⟨S4x1x4096, .f32⟩
  | .hbm, ⟨10, _⟩ => ⟨S4x1x4096, .f32⟩
  | .hbm, ⟨11, _⟩ => ⟨S4x1x4096, .f32⟩
  | .hbm, ⟨12, _⟩ => ⟨S1x1, .f32⟩
  | .hbm, ⟨13, _⟩ => ⟨S_, .f32⟩
  | .hbm, ⟨14, _⟩ => ⟨S1x1, .f32⟩
  | .hbm, ⟨15, _⟩ => ⟨S_, .f32⟩
  | .hbm, ⟨16, _⟩ => ⟨S4x1x4096, .f32⟩
  | .hbm, ⟨17, _⟩ => ⟨S4x1x4096, .f32⟩
  | .hbm, ⟨18, _⟩ => ⟨S4x1x4096, .f32⟩
  | .hbm, ⟨19, _⟩ => ⟨S4x1x4096, .f32⟩
  | .hbm, ⟨20, _⟩ => ⟨S4x1x4096, .f32⟩
  | .hbm, ⟨21, _⟩ => ⟨S4x4098x4096, .f32⟩
  | .hbm, ⟨22, _⟩ => ⟨S4x4098x4098, .f32⟩
  | .local _ .vmem, ⟨0, _⟩ => ⟨S2x2, .f32⟩
  | .local _ .vmem, ⟨1, _⟩ => ⟨S2x2, .f32⟩
  | .local _ .vmem, ⟨2, _⟩ => ⟨S1x256x4096, .f32⟩
  | .local _ .vmem, ⟨3, _⟩ => ⟨S1x256x4096, .f32⟩
  | .local _ .vmem, ⟨4, _⟩ => ⟨S1x256x4098, .f32⟩
  | .local _ .vmem, ⟨5, _⟩ => ⟨S1x256x4098, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S2x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x4098 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S2x2_S1x1_0_0 : S2x2.Slices ![0, 0] S1x1
  shapeCasts_S1x1_S_ : S1x1.ShapeCasts S_
  slices_S4x4096x4096_S4x1x4096_0_0_0 : S4x4096x4096.Slices ![0, 0, 0] S4x1x4096
  bcast_S_S4x1x4096 : S_.BroadcastsInDim S4x1x4096 (![] : Fin 0 → Fin S4x1x4096.rank)
  slices_S2x2_S1x1_0_1 : S2x2.Slices ![0, 1] S1x1
  slices_S4x4096x4096_S4x1x4096_0_4095_0 : S4x4096x4096.Slices ![0, 4095, 0] S4x1x4096
  concatenates_S4x1x4096_S4x4096x4096_S4x1x4096_S4x4098x4096_d1 : Shape.Concatenates [S4x1x4096, S4x4096x4096, S4x1x4096] S4x4098x4096 1
  inb_S2x2_S1x1_1_0 : ∀ a, (![1, 0] : Fin 2 → Nat) a + S1x1.size a ≤ S2x2.size a
  h_S1x1 : 0 < S1x1.numel
  inpos_S1x1_p0_0 : ∀ a, (![0, 0] : Fin 2 → Nat) a < S1x1.size a
  inb_S2x2_S1x1_1_1 : ∀ a, (![1, 1] : Fin 2 → Nat) a + S1x1.size a ≤ S2x2.size a
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  slices_S256x4096_o0_0_S256x1 : S256x4096.Slices ![0, 0] S256x1
  slices_S256x4096_o0_4095_S256x1 : S256x4096.Slices ![0, 4095] S256x1
  iota_S256x1_d0_w32 : S256x1.Iotas .tc 32 [0]
  inb_S1x256x4098_S1x256x1_0_0_0 : ∀ a, (![0, 0, 0] : Fin 3 → Nat) a + S1x256x1.size a ≤ S1x256x4098.size a
  h_S1x256x1 : 0 < S1x256x1.numel
  shapeCasts_S1x256x1_S256x1 : S1x256x1.ShapeCasts S256x1
  shapeCasts_S256x1_S1x256x1 : S256x1.ShapeCasts S1x256x1
  inb_S1x256x4098_S1x256x4096_0_0_1 : ∀ a, (![0, 0, 1] : Fin 3 → Nat) a + S1x256x4096.size a ≤ S1x256x4098.size a
  shapeCasts_S256x4096_S1x256x4096 : S256x4096.ShapeCasts S1x256x4096
  inb_S1x256x4098_S1x256x1_0_0_4097 : ∀ a, (![0, 0, 4097] : Fin 3 → Nat) a + S1x256x1.size a ≤ S1x256x4098.size a
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2x2.size a ≤ S2x2.size a
  hwx0_0 : ∀ i : grid0.Coords, EltTy.bits .f32 = 32 ∨ (Rect.block (s := S2x2) S2x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x2.size a ≤ S2x2.size a
  hwx0_1 : ∀ i : grid0.Coords, EltTy.bits .f32 = 32 ∨ (Rect.block (s := S2x2) S2x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x256x4096.size a < S4x4098x4096.size a
  hwx0_2 : ∀ i : grid0.Coords, EltTy.bits .f32 = 32 ∨ (Rect.unit (s := S4x4098x4096) (fun a => cc0_transform_2 i a * S1x256x4096.size a) (fun a => (Pipeline.Clip.of (cc0_transform_2 i a) (S1x256x4096.size a) (S4x4098x4096.size a)).extent (S1x256x4096.size a)) fun a => Pipeline.Clip.inb (Pipeline.Clip.ok_of (hstart0_2 i a))).WholeWords (EltTy.packing .f32)
  hwxs0_2 : ∀ i : grid0.Coords, EltTy.bits .f32 = 32 ∨ (Rect.unit (s := S1x256x4096) (fun _ => 0) (fun a => (Pipeline.Clip.of (cc0_transform_2 i a) (S1x256x4096.size a) (S4x4098x4096.size a)).extent (S1x256x4096.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x256x4098.size a < S4x4098x4098.size a
  hwx0_3 : ∀ i : grid0.Coords, EltTy.bits .f32 = 32 ∨ (Rect.unit (s := S4x4098x4098) (fun a => cc0_transform_3 i a * S1x256x4098.size a) (fun a => (Pipeline.Clip.of (cc0_transform_3 i a) (S1x256x4098.size a) (S4x4098x4098.size a)).extent (S1x256x4098.size a)) fun a => Pipeline.Clip.inb (Pipeline.Clip.ok_of (hstart0_3 i a))).WholeWords (EltTy.packing .f32)
  hwxs0_3 : ∀ i : grid0.Coords, EltTy.bits .f32 = 32 ∨ (Rect.unit (s := S1x256x4098) (fun _ => 0) (fun a => (Pipeline.Clip.of (cc0_transform_3 i a) (S1x256x4098.size a) (S4x4098x4098.size a)).extent (S1x256x4098.size a)) fun a => (Nat.zero_add _).trans_le (Pipeline.Clip.extent_le (Pipeline.Clip.ok_of (hstart0_3 i a)))).WholeWords (EltTy.packing .f32)

variable [Facts₀]

abbrev win0_0 : Pipeline.Window sig grid0 :=
  Pipeline.Window.ofSpec (Memref.whole main_arg1) S2x2.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v18) S1x256x4096.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v19) S1x256x4098.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S2x2 : Shape := ⟨2, ![2, 2]⟩
abbrev S_ : Shape := ⟨0, ![]⟩
abbrev S4x4098x4098 : Shape := ⟨3, ![4, 4098, 4098]⟩
abbrev S1x1 : Shape := ⟨2, ![1, 1]⟩
abbrev S4x1x4096 : Shape := ⟨3, ![4, 1, 4096]⟩
abbrev S4x4096 : Shape := ⟨2, ![4, 4096]⟩
abbrev S1 : Shape := ⟨1, ![1]⟩
abbrev S2 : Shape := ⟨1, ![2]⟩
abbrev S4x4096x1 : Shape := ⟨3, ![4, 4096, 1]⟩

abbrev nBuf : Space → Nat
  | .hbm => 70
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S2x2, .f32⟩
  | .hbm, ⟨2, _⟩ => ⟨S2x2, .f32⟩
  | .hbm, ⟨3, _⟩ => ⟨S_, .i32⟩
  | .hbm, ⟨4, _⟩ => ⟨S_, .f32⟩
  | .hbm, ⟨5, _⟩ => ⟨S4x4098x4098, .f32⟩
  | .hbm, ⟨6, _⟩ => ⟨S1x1, .f32⟩
  | .hbm, ⟨7, _⟩ => ⟨S_, .f32⟩
  | .hbm, ⟨8, _⟩ => ⟨S1x1, .f32⟩
  | .hbm, ⟨9, _⟩ => ⟨S_, .f32⟩
  | .hbm, ⟨10, _⟩ => ⟨S4x1x4096, .f32⟩
  | .hbm, ⟨11, _⟩ => ⟨S4x4096, .f32⟩
  | .hbm, ⟨12, _⟩ => ⟨S4x4096, .f32⟩
  | .hbm, ⟨13, _⟩ => ⟨S4x4096, .f32⟩
  | .hbm, ⟨14, _⟩ => ⟨S4x4096, .f32⟩
  | .hbm, ⟨15, _⟩ => ⟨S4x4096, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S4x4098x4098, .f32⟩
  | .hbm, ⟨22, _⟩ => ⟨S1x1, .f32⟩
  | .hbm, ⟨23, _⟩ => ⟨S_, .f32⟩
  | .hbm, ⟨24, _⟩ => ⟨S1x1, .f32⟩
  | .hbm, ⟨25, _⟩ => ⟨S_, .f32⟩
  | .hbm, ⟨26, _⟩ => ⟨S4x1x4096, .f32⟩
  | .hbm, ⟨27, _⟩ => ⟨S4x4096, .f32⟩
  | .hbm, ⟨28, _⟩ => ⟨S4x4096, .f32⟩
  | .hbm, ⟨29, _⟩ => ⟨S4x4096, .f32⟩
  | .hbm, ⟨30, _⟩ => ⟨S4x4096, .f32⟩
  | .hbm, ⟨31, _⟩ => ⟨S4x4096, .f32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S4x4098x4098, .f32⟩
  | .hbm, ⟨38, _⟩ => ⟨S1x1, .f32⟩
  | .hbm, ⟨39, _⟩ => ⟨S_, .f32⟩
  | .hbm, ⟨40, _⟩ => ⟨S1x1, .f32⟩
  | .hbm, ⟨41, _⟩ => ⟨S_, .f32⟩
  | .hbm, ⟨42, _⟩ => ⟨S4x4096x1, .f32⟩
  | .hbm, ⟨43, _⟩ => ⟨S4x4096, .f32⟩
  | .hbm, ⟨44, _⟩ => ⟨S4x4096, .f32⟩
  | .hbm, ⟨45, _⟩ => ⟨S4x4096, .f32⟩
  | .hbm, ⟨46, _⟩ => ⟨S4x4096, .f32⟩
  | .hbm, ⟨47, _⟩ => ⟨S4x4096, .f32⟩
  | .hbm, ⟨48, _⟩ => ⟨S_, .i32⟩
  | .hbm, ⟨49, _⟩ => ⟨S1, .i32⟩
  | .hbm, ⟨50, _⟩ => ⟨S_, .i32⟩
  | .hbm, ⟨51, _⟩ => ⟨S1, .i32⟩
  | .hbm, ⟨52, _⟩ => ⟨S2, .i32⟩
  | .hbm, ⟨53, _⟩ => ⟨S4x4098x4098, .f32⟩
  | .hbm, ⟨54, _⟩ => ⟨S1x1, .f32⟩
  | .hbm, ⟨55, _⟩ => ⟨S_, .f32⟩
  | .hbm, ⟨56, _⟩ => ⟨S1x1, .f32⟩
  | .hbm, ⟨57, _⟩ => ⟨S_, .f32⟩
  | .hbm, ⟨58, _⟩ => ⟨S4x4096x1, .f32⟩
  | .hbm, ⟨59, _⟩ => ⟨S4x4096, .f32⟩
  | .hbm, ⟨60, _⟩ => ⟨S4x4096, .f32⟩
  | .hbm, ⟨61, _⟩ => ⟨S4x4096, .f32⟩
  | .hbm, ⟨62, _⟩ => ⟨S4x4096, .f32⟩
  | .hbm, ⟨63, _⟩ => ⟨S4x4096, .f32⟩
  | .hbm, ⟨64, _⟩ => ⟨S_, .i32⟩
  | .hbm, ⟨65, _⟩ => ⟨S1, .i32⟩
  | .hbm, ⟨66, _⟩ => ⟨S_, .i32⟩
  | .hbm, ⟨67, _⟩ => ⟨S1, .i32⟩
  | .hbm, ⟨68, _⟩ => ⟨S2, .i32⟩
  | .hbm, ⟨69, _⟩ => ⟨S4x4098x4098, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_2 : Ref sig .tc := ⟨.hbm, 32, rfl⟩
abbrev main_v25 : Ref sig .tc := ⟨.hbm, 33, rfl⟩
abbrev main_c_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_c_4 : Ref sig .tc := ⟨.hbm, 48, rfl⟩
abbrev main_v39 : Ref sig .tc := ⟨.hbm, 49, rfl⟩
abbrev main_c_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_c_6 : Ref sig .tc := ⟨.hbm, 64, rfl⟩
abbrev main_v53 : Ref sig .tc := ⟨.hbm, 65, rfl⟩
abbrev main_c_7 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩

abbrev nD : Nat := 1
abbrev τ : Topo := Topo.v7x

variable {F : FTy → Type} [FloatOps F]

class Facts₀ : Prop where
  pads_S4x4096x4096_S4x4098x4098_000_110_110 : S4x4096x4096.Pads (![0, 1, 1] : Fin 3 → Nat) ![0, 1, 1] ![0, 0, 0] S4x4098x4098
  h_S_ : 0 < S_.numel
  slices_S2x2_S1x1_0_1 : S2x2.Slices ![0, 1] S1x1
  shapeCasts_S1x1_S_ : S1x1.ShapeCasts S_
  slices_S4x4096x4096_S4x1x4096_0_4095_0 : S4x4096x4096.Slices ![0, 4095, 0] S4x1x4096
  shapeCasts_S4x1x4096_S4x4096 : S4x1x4096.ShapeCasts S4x4096
  bcast_S_S4x4096 : S_.BroadcastsInDim S4x4096 (![] : Fin 0 → Fin S4x4096.rank)
  bcast_S_S1 : S_.BroadcastsInDim S1 (![] : Fin 0 → Fin S1.rank)
  concatenates_S1_S1_S2_d0 : Shape.Concatenates [S1, S1] S2 0
  slices_S2x2_S1x1_0_0 : S2x2.Slices ![0, 0] S1x1
  slices_S4x4096x4096_S4x1x4096_0_0_0 : S4x4096x4096.Slices ![0, 0, 0] S4x1x4096
  slices_S2x2_S1x1_1_1 : S2x2.Slices ![1, 1] S1x1
  slices_S4x4096x4096_S4x4096x1_0_0_4095 : S4x4096x4096.Slices ![0, 0, 4095] S4x4096x1
  shapeCasts_S4x4096x1_S4x4096 : S4x4096x1.ShapeCasts S4x4096
  slices_S2x2_S1x1_1_0 : S2x2.Slices ![1, 0] S1x1
  slices_S4x4096x4096_S4x4096x1_0_0_0 : S4x4096x4096.Slices ![0, 0, 0] S4x4096x1
  scatter_S4x4098x4098_S2_S4x4096_01_1_12_0_wf : ScatterDims.WF S4x4098x4098 S2 S4x4096 [0, 1] [1] [1, 2] 0
  scatter_S4x4098x4098_S2_S4x4096_01_2_12_0_wf : ScatterDims.WF S4x4098x4098 S2 S4x4096 [0, 1] [2] [1, 2] 0

variable [Facts₀]

def scatter_S4x4098x4098_S2_S4x4096_01_1_12_0 : ScatterDims S4x4098x4098 S2 S4x4096 where
  updateWindowDims := [0, 1]
  insertedWindowDims := [1]
  scatterDimsToOperandDims := [1, 2]
  indexVectorDim := 0
  wf := scatter_S4x4098x4098_S2_S4x4096_01_1_12_0_wf
def scatter_S4x4098x4098_S2_S4x4096_01_2_12_0 : ScatterDims S4x4098x4098 S2 S4x4096 where
  updateWindowDims := [0, 1]
  insertedWindowDims := [2]
  scatterDimsToOperandDims := [1, 2]
  indexVectorDim := 0
  wf := scatter_S4x4098x4098_S2_S4x4096_01_2_12_0_wf

class Facts : Prop extends Facts₀ where

variable [Facts]
-- ==== Proof.KBTile.lean ====
/-
  What the column-padding body leaves in its output block, as one function of its input blocks.

  The body reads the two coefficient tables and one tile of 256 rows of the row-padded array, and
  writes the tile of the result in three pieces: column 0 (the left ghost column), columns 1 … 4096
  (the rows themselves) and column 4097 (the right ghost column).  The three pieces tile the output
  block, so after the body the block is the canonical function of the three stores.
-/
import proofs.«166649_j66305705115790_1_alg».proof.Proof.Gen.Kernel.Launch
import proofs.«166649_j66305705115790_1_alg».proof.Proof.Gen.Kernel.Skeleton
import proofs.«166649_j66305705115790_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The coefficient cells `[1, 0]` and `[1, 1]` of a 2 × 2 table. -/
abbrev cell10 : Rect S2x2 := Rect.unit (s := S2x2) ![1, 0] S1x1.size inb_S2x2_S1x1_1_0
abbrev cell11 : Rect S2x2 := Rect.unit (s := S2x2) ![1, 1] S1x1.size inb_S2x2_S1x1_1_1
/-- The whole input tile. -/
abbrev tileIn : Rect S1x256x4096 := Rect.unit (s := S1x256x4096) ![0, 0, 0] S1x256x4096.size inb_S1x256x4096_S1x256x4096_0_0_0
/-- The output tile's left ghost column, its middle columns and its right ghost column. -/
abbrev colL : Rect S1x256x4098 := Rect.unit (s := S1x256x4098) ![0, 0, 0] S1x256x1.size inb_S1x256x4098_S1x256x1_0_0_0
abbrev colM : Rect S1x256x4098 := Rect.unit (s := S1x256x4098) ![0, 0, 1] S1x256x4096.size inb_S1x256x4098_S1x256x4096_0_0_1
abbrev colR : Rect S1x256x4098 := Rect.unit (s := S1x256x4098) ![0, 0, 4097] S1x256x1.size inb_S1x256x4098_S1x256x1_0_0_4097

/-! ## What the body leaves in the output block -/

/-- The output tile after the body at grid coordinates `i`, from the two coefficient tables `x0`, `x1`
    and the input tile `x2`: its three stores as pieces, the last first. -/
def outTile (i : grid0.Coords) (x0 x1 : Vec F S2x2 .f32) (x2 : Vec F S1x256x4096 .f32) : Vec F S1x256x4098 .f32 :=
  View.canon [⟨colR, k0_pay2 (k0_pay6 i (View.ld x0 cell11) (View.ld x1 cell11) (View.ld x2 tileIn))⟩,
    ⟨colM, k0_pay1 (k0_pay3 (View.ld x2 tileIn))⟩,
    ⟨colL, k0_pay7 i (View.ld x0 cell10) (View.ld x1 cell10) (View.ld x2 tileIn)⟩]

/-- The three stores tile the block, so they cover it. -/
theorem outTile_cover (p0 : Vec F S1x256x1 .f32) (p1 : Vec F S1x256x4096 .f32) (p2 : Vec F S1x256x1 .f32) (y : S1x256x4098.Idx) :
    ∃ pc ∈ ([⟨colR, p0⟩, ⟨colM, p1⟩, ⟨colL, p2⟩] : List (View.Piece (Elt F) S1x256x4098 .f32)), y ∈ pc.1.set :=
  View.cover_of_tiledBy [⟨colR, p0⟩, ⟨colM, p1⟩, ⟨colL, p2⟩] ![1, 256, 1] (by sl_kernel_rfl) y

end Cert.Kernel.Hand

end
-- ==== Proof.KBBody.lean ====
/-
  The column-padding body, run on whole staging blocks: it leaves its inputs as they were and the
  output block at the canonical function of its three stores (`outTile`).
-/
import proofs.«166649_j66305705115790_1_alg».proof.Proof.KBTile

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's triple -/

set_option maxHeartbeats 1000000 in
/-- The body on whole staging memrefs — the coefficient tables at `x0`, `x1`, the input tile at `x2`,
    the output tile at anything — runs to the continuation holding the inputs as they were and the
    output tile at `outTile` of them. -/
theorem sound_kernel (c : Dev nD) (E : Set ℕ) (i : grid0.Coords)
    (arg2 : Memref sig .tc .vmem S2x2 .f32) (harg2 : arg2.IsWhole) (arg3 : Memref sig .tc .vmem S2x2 .f32) (harg3 : arg3.IsWhole)
    (arg4 : Memref sig .tc .vmem S1x256x4096 .f32) (harg4 : arg4.IsWhole) (arg5 : Memref sig .tc .vmem S1x256x4098 .f32) (harg5 : arg5.IsWhole)
    (x0 x1 : Vec F S2x2 .f32) (x2 : Vec F S1x256x4096 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outTile i x0 x1 x2)) -∗ K ⟨⟩))
      ⊢ wp frame (wpE (defs₀ (F := F)) Variants.none c none) E (cc0__col_pad_kernel i arg2 harg2 arg3 harg3 arg4 harg4 arg5 harg5) K := by
  simp only [cc0__col_pad_kernel_eq_skeleton]; unfold cc0__col_pad_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outTile_cover _ _ _)

end Cert.Kernel.Hand

end
-- ==== Proof.KBEntry.lean ====
/-
  The padded program up to its one region: nineteen host operations build the row-padded array
  (ghost rows above and below the field), then the region pads the columns.  This module names what
  every buffer holds when the region is entered, shows that the host operations leave the three
  argument arrays alone, and states the program as "host operations, then the region".
-/
import proofs.«166649_j66305705115790_1_alg».proof.Proof.Gen.Kernel.Launch
import proofs.«166649_j66305705115790_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers when the region is entered: the launch contents after the host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the field array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- Nor the table of constants, -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- nor the table of factors. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- Window `w`'s block at point `t`, read off its array as the region finds it: the block's part
    inside the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Hand

end
-- ==== Proof.Spec.lean ====
/-
  The mathematics both programs compute, stated once over literal shapes and over any float instance.

  A field array `arr` of four components on a 4096 × 4096 grid is surrounded by one layer of ghost
  cells.  A ghost cell next to a valid cell `x` holds the affine virtual point `c + f · x`, with the
  coefficients `c = cst[axis, side]` and `f = fct[axis, side]`; the four corner cells of every
  component hold zero.  `rows` adds the ghost rows (axis 0), `cols` adds the ghost columns (axis 1)
  of a row-padded array and zeroes the corners, and `padded` is the two in sequence.
-/
import Idealize.ShloMosaic.PureOps
import Idealize.ShloMosaic.Lib.ValueIdx

noncomputable section

namespace Cert.Spec

open Idealize.ShloMosaic Idealize.ShloMosaic.ValueIdx

variable {F : FTy → Type} [FloatOps F]

/-- The field array, the coefficient tables, the row-padded array and the result. -/
abbrev SArr : Shape := ⟨3, ![4, 4096, 4096]⟩
abbrev SCoef : Shape := ⟨2, ![2, 2]⟩
abbrev SRows : Shape := ⟨3, ![4, 4098, 4096]⟩
abbrev SOut : Shape := ⟨3, ![4, 4098, 4098]⟩

/-- The affine virtual point `c + f · x`. -/
def ghost (c f x : F .f32) : F .f32 := FloatOps.addf c (FloatOps.mulf f x)

/-- The zero every corner cell holds. -/
def zero : F .f32 := Scalar.ofBits .f32 0x00000000#32

/-- Ghost rows: row 0 is the virtual point of the first valid row (side 0 of axis 0), row 4097 that
    of the last valid row (side 1), rows 1 … 4096 are the valid rows. -/
def rows (arr : SArr.Idx → F .f32) (cst fct : SCoef.Idx → F .f32) : SRows.Idx → F .f32 := fun j =>
  if (j 1).val = 0 then
    ghost (cst (ix2 (0 : Fin 2) (0 : Fin 2))) (fct (ix2 (0 : Fin 2) (0 : Fin 2)))
      (arr (ix3 (⟨(j 0).val, (j 0).isLt⟩ : Fin 4) (⟨0, by decide⟩ : Fin 4096) (⟨(j 2).val, (j 2).isLt⟩ : Fin 4096)))
  else if (j 1).val = 4097 then
    ghost (cst (ix2 (0 : Fin 2) (1 : Fin 2))) (fct (ix2 (0 : Fin 2) (1 : Fin 2)))
      (arr (ix3 (⟨(j 0).val, (j 0).isLt⟩ : Fin 4) (⟨4095, by decide⟩ : Fin 4096) (⟨(j 2).val, (j 2).isLt⟩ : Fin 4096)))
  else
    arr (ix3 (⟨(j 0).val, (j 0).isLt⟩ : Fin 4) (⟨((j 1).val - 1) % 4096, Nat.mod_lt _ (by decide)⟩ : Fin 4096)
      (⟨(j 2).val, (j 2).isLt⟩ : Fin 4096))

/-- Ghost columns of a row-padded array `r`: column 0 is the virtual point of the first column
    (side 0 of axis 1), column 4097 that of the last (side 1), except in rows 0 and 4097, where both
    are zero; columns 1 … 4096 are `r`'s. -/
def cols (r : SRows.Idx → F .f32) (cst fct : SCoef.Idx → F .f32) : SOut.Idx → F .f32 := fun j =>
  if (j 2).val = 0 then
    if (j 1).val = 0 ∨ (j 1).val = 4097 then zero
    else ghost (cst (ix2 (1 : Fin 2) (0 : Fin 2))) (fct (ix2 (1 : Fin 2) (0 : Fin 2)))
      (r (ix3 (⟨(j 0).val, (j 0).isLt⟩ : Fin 4) (⟨(j 1).val, (j 1).isLt⟩ : Fin 4098) (⟨0, by decide⟩ : Fin 4096)))
  else if (j 2).val = 4097 then
    if (j 1).val = 0 ∨ (j 1).val = 4097 then zero
    else ghost (cst (ix2 (1 : Fin 2) (1 : Fin 2))) (fct (ix2 (1 : Fin 2) (1 : Fin 2)))
      (r (ix3 (⟨(j 0).val, (j 0).isLt⟩ : Fin 4) (⟨(j 1).val, (j 1).isLt⟩ : Fin 4098) (⟨4095, by decide⟩ : Fin 4096)))
  else
    r (ix3 (⟨(j 0).val, (j 0).isLt⟩ : Fin 4) (⟨(j 1).val, (j 1).isLt⟩ : Fin 4098)
      (⟨((j 2).val - 1) % 4096, Nat.mod_lt _ (by decide)⟩ : Fin 4096))

/-- The padded field: ghost rows, then ghost columns. -/
def padded (arr : SArr.Idx → F .f32) (cst fct : SCoef.Idx → F .f32) : SOut.Idx → F .f32 :=
  cols (rows arr cst fct) cst fct

end Cert.Spec

end
-- ==== Proof.KBCover.lean ====
/-
  The output tiles cover the result array: the cell in row `ρ` of component `a` lies in the tile of
  grid point `(a, ρ / 256)` — also in the last row tile, which overhangs the 4098 rows and is cut to
  its two rows inside the array.
-/
import proofs.«166649_j66305705115790_1_alg».proof.Proof.Gen.Kernel.Launch
import proofs.«166649_j66305705115790_1_alg».proof.Proof.Gen.Kernel.Points
import Idealize.ShloMosaic.Lib.Pipeline.Value

set_option maxRecDepth 16384

noncomputable section

namespace Cert.Kernel.Hand

open Cert.Kernel Cert.Kernel.Gen
open Idealize.ShloMosaic Idealize.ShloMosaic.TcCoe Idealize.SL.Sem

/-- The output window at grid point `t` (component `t / 17`, row tile `t % 17`): its block index, and
    the sizes of the part of the block inside the array — two rows for the last row tile. -/
theorem out_block : ∀ t : Fin cfg0.N,
    win0_3.index t (0 : Fin 3) = t.val / 17 ∧ win0_3.index t (1 : Fin 3) = t.val % 17 ∧ win0_3.index t (2 : Fin 3) = 0
    ∧ win0_3.xsize (grid0.coords t) (0 : Fin 3) = 1
    ∧ win0_3.xsize (grid0.coords t) (1 : Fin 3) = (if t.val % 17 = 16 then 2 else 256)
    ∧ win0_3.xsize (grid0.coords t) (2 : Fin 3) = 4098 :=
  (by decide +kernel : ∀ t : Fin grid0.N,
    win0_3.index t (0 : Fin 3) = t.val / 17 ∧ win0_3.index t (1 : Fin 3) = t.val % 17 ∧ win0_3.index t (2 : Fin 3) = 0
    ∧ win0_3.xsize (grid0.coords t) (0 : Fin 3) = 1
    ∧ win0_3.xsize (grid0.coords t) (1 : Fin 3) = (if t.val % 17 = 16 then 2 else 256)
    ∧ win0_3.xsize (grid0.coords t) (2 : Fin 3) = 4098)

/-- Every cell of the result array is in the block some grid point writes back. -/
theorem cover_out (c : Dev nD) (i : ((cfg0.win 3).arr.view.loc (c.tc : Thread nD τ)).2.ty.Idx) :
    ∃ t : Fin cfg0.N, (cfg0.win 3).flush t = true ∧ i ∈ ((cfg0.win 3).blk t).view.set := by
  have h0 : (i 0).val < 4 := (i 0).isLt
  have h1 : (i 1).val < 4098 := (i 1).isLt
  have h2 : (i 2).val < 4098 := (i 2).isLt
  have hN : (i 0).val * 17 + (i 1).val / 256 < cfg0.N := by
    show _ < grid0.N; rw [N_0]; omega
  refine ⟨⟨(i 0).val * 17 + (i 1).val / 256, hN⟩, flush0_3 _, ?_⟩
  show i ∈ ((View.whole main_v19).slice (win0_3.rect ⟨(i 0).val * 17 + (i 1).val / 256, hN⟩)).set
  rw [View.set_slice_whole, Rect.mem_set_unit]
  obtain ⟨e0, e1, e2, s0, s1, s2⟩ := out_block ⟨(i 0).val * 17 + (i 1).val / 256, hN⟩
  have z0 : win0_3.size (0 : Fin 3) = 1 := rfl
  have z1 : win0_3.size (1 : Fin 3) = 256 := rfl
  have z2 : win0_3.size (2 : Fin 3) = 4098 := rfl
  intro a
  match a with
  | ⟨0, _⟩ =>
    show win0_3.index _ (0 : Fin 3) * win0_3.size (0 : Fin 3) ≤ (i 0).val
      ∧ (i 0).val < win0_3.index _ (0 : Fin 3) * win0_3.size (0 : Fin 3) + win0_3.xsize _ (0 : Fin 3)
    rw [e0, s0, z0]; dsimp only; omega
  | ⟨1, _⟩ =>
    show win0_3.index _ (1 : Fin 3) * win0_3.size (1 : Fin 3) ≤ (i 1).val
      ∧ (i 1).val < win0_3.index _ (1 : Fin 3) * win0_3.size (1 : Fin 3) + win0_3.xsize _ (1 : Fin 3)
    rw [e1, s1, z1]; dsimp only; split <;> omega
  | ⟨2, _⟩ =>
    show win0_3.index _ (2 : Fin 3) * win0_3.size (2 : Fin 3) ≤ (i 2).val
      ∧ (i 2).val < win0_3.index _ (2 : Fin 3) * win0_3.size (2 : Fin 3) + win0_3.xsize _ (2 : Fin 3)
    rw [e2, s2, z2]; omega

end Cert.Kernel.Hand

end
-- ==== Proof.KBTileAt.lean ====
/-
  The output tile of the column-padding body as ONE function of the index.

  The body's three stores tile the output block: column 0, columns 1 … 4096 and column 4097.  Read
  at row `p` and column `q`, the block holds
    * in column 0 the virtual point `c + f · x` of the row's first input element, with the
      coefficients at `[1, 0]` of the two tables,
    * in column 4097 the virtual point of the row's last input element, coefficients at `[1, 1]`,
    * in both, zero instead when the row is the array's row 0 or row 4097 (the row number is the grid
      row times 256 plus `p`, computed in 32-bit words; the grid row is below 17, so nothing wraps),
    * in column `q` between them the input element of column `q - 1`.
  Everything here is generic in the float instance: the arithmetic is never evaluated.
-/
import proofs.«166649_j66305705115790_1_alg».proof.Proof.KBTile
import proofs.«166649_j66305705115790_1_alg».proof.Proof.Spec
import Idealize.ShloMosaic.Lib.Pipeline.Value
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

/-! ## The row number, in 32-bit words -/

/-- The zero-offset triple, however spelt. -/
theorem hz3 : (![0, 0, 0] : Fin 3 → Nat) = fun _ => 0 := funext fun a => by fin_cases a <;> rfl

/-- Grid row `n` below 17 and tile row `p` below 256: `n · 256 + p` does not wrap in 32 bits. -/
theorem rowWord (n p : Nat) (hn : n < 17) (hp : p < 256) :
    IntOp.addi (Scalar.muli (BitVec.ofNat 32 n) 256#32) (BitVec.ofNat 32 p) = BitVec.ofNat 32 (n * 256 + p) := by
  unfold IntOp.addi Scalar.muli IntOp.muli
  apply BitVec.eq_of_toNat_eq
  simp only [BitVec.toNat_add, BitVec.toNat_mul, BitVec.toNat_ofNat]
  omega

/-- The body's test "row number is 0 or 4097" on a word that holds the number `m`. -/
theorem edgeBit (m : Nat) (hm : m < 2 ^ 32) :
    IntOp.ori (IntOp.cmpi .eq (BitVec.ofNat 32 m) 0#32) (IntOp.cmpi .eq (BitVec.ofNat 32 m) 4097#32)
      = if m = 0 ∨ m = 4097 then 1#1 else 0#1 := by
  by_cases h0 : m = 0
  · subst h0; decide
  by_cases h1 : m = 4097
  · subst h1; decide
  rw [if_neg (by omega)]
  have e0 : (BitVec.ofNat 32 m == 0#32) = false := by
    rw [beq_eq_false_iff_ne]; intro h
    have := congrArg BitVec.toNat h
    simp only [BitVec.toNat_ofNat] at this; omega
  have e1 : (BitVec.ofNat 32 m == 4097#32) = false := by
    rw [beq_eq_false_iff_ne]; intro h
    have := congrArg BitVec.toNat h
    simp only [BitVec.toNat_ofNat] at this; omega
  unfold IntOp.ori IntOp.cmpi
  simp only [e0, e1]
  decide

/-- A select on a decided bit is the `if`. -/
theorem select_ite {α : Type} (P : Prop) [Decidable P] (a b : α) :
    Scalar.select (if P then 1#1 else 0#1) a b = if P then a else b := by
  by_cases h : P
  · rw [if_pos h, if_pos h]; exact select_one a b
  · rw [if_neg h, if_neg h]; exact select_zero a b

/-- The body's boundary mask at tile row `p`: set iff the row is the array's row 0 or 4097. -/
theorem pay4_at (i : grid0.Coords) (p : Fin 256) (z : Fin 1) :
    k0_pay4 i (ix2 p z) = if (i 1).val * 256 + p.val = 0 ∨ (i 1).val * 256 + p.val = 4097 then 1#1 else 0#1 := by
  have hi : (i 1).val < 17 := (i 1).isLt
  have hp : p.val < 256 := p.isLt
  unfold k0_pay4
  show IntOp.ori (IntOp.cmpi .eq (IntOp.addi (Scalar.muli (BitVec.ofNat 32 (i 1).val) 256#32) (iota .tc S256x1 32 [0] iota_S256x1_d0_w32 (ix2 p z))) 0#32)
      (IntOp.cmpi .eq (IntOp.addi (Scalar.muli (BitVec.ofNat 32 (i 1).val) 256#32) (iota .tc S256x1 32 [0] iota_S256x1_d0_w32 (ix2 p z))) 4097#32) = _
  rw [iota_single_apply]
  show IntOp.ori (IntOp.cmpi .eq (IntOp.addi (Scalar.muli (BitVec.ofNat 32 (i 1).val) 256#32) (BitVec.ofNat 32 p.val)) 0#32)
      (IntOp.cmpi .eq (IntOp.addi (Scalar.muli (BitVec.ofNat 32 (i 1).val) 256#32) (BitVec.ofNat 32 p.val)) 4097#32) = _
  rw [rowWord _ _ hi hp, edgeBit _ (by omega)]

/-! ## The payloads at an index -/

/-- The load of the whole input tile reads the tile. -/
theorem ld_tileIn (x2 : Vec F S1x256x4096 .f32) : View.ld x2 tileIn = x2 :=
  View.ld_unit_zero hz3 _ x2

/-- The input tile without its unit axis, at row `p` and column `q`. -/
theorem pay3_at (x2 : Vec F S1x256x4096 .f32) (p : Fin 256) (q : Fin 4096) :
    k0_pay3 x2 (ix2 p q) = x2 (ix3 (0 : Fin 1) p q) := by
  unfold k0_pay3
  refine shapeCast_apply _ _ _ (ix3 (0 : Fin 1) p q) ?_
  rw [Shape.rowMajor_val_two, Shape.rowMajor_val_three]
  show ((0 : ℕ) * 256 + p.val) * 4096 + q.val = p.val * 4096 + q.val
  omega

/-- The scalar the body extracts from its load of cell `[1, b]` of a coefficient table. -/
theorem coef_at (x : Vec F S2x2 .f32) (b : Fin 2) (inb : ∀ a, (![1, b.val] : Fin 2 → Nat) a + S1x1.size a ≤ S2x2.size a) :
    extractAt ![0, 0] (View.ld x (Rect.unit (s := S2x2) ![1, b.val] S1x1.size inb)) inpos_S1x1_p0_0 = x (ix2 (1 : Fin 2) b) := by
  unfold extractAt
  show x _ = x _
  refine congrArg x (funext fun a => Fin.ext ?_)
  match a with
  | ⟨0, _⟩ => show 1 + 1 * 0 = 1; rfl
  | ⟨1, _⟩ => show b.val + 1 * 0 = b.val; omega

theorem coef10 (x : Vec F S2x2 .f32) :
    extractAt ![0, 0] (View.ld x cell10) inpos_S1x1_p0_0 = x (ix2 (1 : Fin 2) (0 : Fin 2)) := coef_at x 0 _
theorem coef11 (x : Vec F S2x2 .f32) :
    extractAt ![0, 0] (View.ld x cell11) inpos_S1x1_p0_0 = x (ix2 (1 : Fin 2) (1 : Fin 2)) := coef_at x 1 _

/-- Column `c` of the input tile, sliced out as a 256 × 1 vector, at row `p`. -/
theorem col_at (x2 : Vec F S1x256x4096 .f32) (c : Fin 4096) (hs : S256x4096.Slices ![0, c.val] S256x1) (p : Fin 256) (z : Fin 1) :
    extractStridedSlice S256x1 ![0, c.val] (k0_pay3 x2) hs (ix2 p z) = x2 (ix3 (0 : Fin 1) p c) := by
  refine (extractStridedSlice_apply _ _ _ _ (ix2 p c) ?_).trans (pay3_at x2 p c)
  intro a
  match a with
  | ⟨0, _⟩ => show p.val = 0 + p.val; omega
  | ⟨1, _⟩ => show c.val = c.val + z.val; have := z.isLt; omega

theorem col0 (x2 : Vec F S1x256x4096 .f32) (p : Fin 256) (z : Fin 1) :
    extractStridedSlice S256x1 ![0, 0] (k0_pay3 x2) slices_S256x4096_o0_0_S256x1 (ix2 p z)
      = x2 (ix3 (0 : Fin 1) p (⟨0, by decide⟩ : Fin 4096)) := col_at x2 ⟨0, by decide⟩ _ p z
theorem col4095 (x2 : Vec F S1x256x4096 .f32) (p : Fin 256) (z : Fin 1) :
    extractStridedSlice S256x1 ![0, 4095] (k0_pay3 x2) slices_S256x4096_o0_4095_S256x1 (ix2 p z)
      = x2 (ix3 (0 : Fin 1) p (⟨4095, by decide⟩ : Fin 4096)) := col_at x2 ⟨4095, by decide⟩ _ p z

/-- Whether row `p` of the tile at grid coordinates `i` is the array's first or last row. -/
abbrev edgeRow (i : grid0.Coords) (p : Nat) : Prop := (i 1).val * 256 + p = 0 ∨ (i 1).val * 256 + p = 4097

/-- The left ghost column's payload at row `p`. -/
theorem payL_at (i : grid0.Coords) (x0 x1 : Vec F S2x2 .f32) (x2 : Vec F S1x256x4096 .f32) (a : Fin 1) (p : Fin 256) (z : Fin 1) :
    k0_pay7 i (View.ld x0 cell10) (View.ld x1 cell10) (View.ld x2 tileIn) (ix3 a p z)
      = if edgeRow i p.val then Cert.Spec.zero
        else Cert.Spec.ghost (x0 (ix2 (1 : Fin 2) (0 : Fin 2))) (x1 (ix2 (1 : Fin 2) (0 : Fin 2))) (x2 (ix3 (0 : Fin 1) p (⟨0, by decide⟩ : Fin 4096))) := by
  unfold k0_pay7
  rw [ld_tileIn]
  refine (shapeCast_apply _ _ _ (ix2 p z) ?_).trans ?_
  · rw [Shape.rowMajor_val_two, Shape.rowMajor_val_three]
    show p.val * 1 + z.val = (a.val * 256 + p.val) * 1 + z.val
    have := a.isLt; omega
  show Scalar.select (k0_pay4 i (ix2 p z)) (k0_pay5 (F := F) (ix2 p z))
    (FloatOps.addf (extractAt ![0, 0] (View.ld x0 cell10) inpos_S1x1_p0_0)
      (FloatOps.mulf (extractAt ![0, 0] (View.ld x1 cell10) inpos_S1x1_p0_0)
        (extractStridedSlice S256x1 ![0, 0] (k0_pay3 x2) slices_S256x4096_o0_0_S256x1 (ix2 p z)))) = _
  rw [pay4_at, select_ite, coef10, coef10, col0]
  rfl

/-- The right ghost column's payload at row `p`. -/
theorem payR_at (i : grid0.Coords) (x0 x1 : Vec F S2x2 .f32) (x2 : Vec F S1x256x4096 .f32) (a : Fin 1) (p : Fin 256) (z : Fin 1) :
    k0_pay2 (k0_pay6 i (View.ld x0 cell11) (View.ld x1 cell11) (View.ld x2 tileIn)) (ix3 a p z)
      = if edgeRow i p.val then Cert.Spec.zero
        else Cert.Spec.ghost (x0 (ix2 (1 : Fin 2) (1 : Fin 2))) (x1 (ix2 (1 : Fin 2) (1 : Fin 2))) (x2 (ix3 (0 : Fin 1) p (⟨4095, by decide⟩ : Fin 4096))) := by
  unfold k0_pay2 k0_pay6
  rw [ld_tileIn]
  refine (shapeCast_apply _ _ _ (ix2 p z) ?_).trans ?_
  · rw [Shape.rowMajor_val_two, Shape.rowMajor_val_three]
    show p.val * 1 + z.val = (a.val * 256 + p.val) * 1 + z.val
    have := a.isLt; omega
  show Scalar.select (k0_pay4 i (ix2 p z)) (k0_pay5 (F := F) (ix2 p z))
    (FloatOps.addf (extractAt ![0, 0] (View.ld x0 cell11) inpos_S1x1_p0_0)
      (FloatOps.mulf (extractAt ![0, 0] (View.ld x1 cell11) inpos_S1x1_p0_0)
        (extractStridedSlice S256x1 ![0, 4095] (k0_pay3 x2) slices_S256x4096_o0_4095_S256x1 (ix2 p z)))) = _
  rw [pay4_at, select_ite, coef11, coef11, col4095]
  rfl

/-- The middle store's payload is the input tile: a unit axis dropped and added again. -/
theorem payM_eq (x2 : Vec F S1x256x4096 .f32) : k0_pay1 (k0_pay3 (View.ld x2 tileIn)) = x2 := by
  rw [ld_tileIn]
  exact shapeCast_shapeCast x2 _ _

/-! ## The tile as one function of the index -/

/-- Row `p`, column `q` of the output tile at grid coordinates `i`. -/
def tileAt (i : grid0.Coords) (x0 x1 : Vec F S2x2 .f32) (x2 : Vec F S1x256x4096 .f32) (p : Fin 256) (q : Nat) : F .f32 :=
  if q = 0 then
    if edgeRow i p.val then Cert.Spec.zero
    else Cert.Spec.ghost (x0 (ix2 (1 : Fin 2) (0 : Fin 2))) (x1 (ix2 (1 : Fin 2) (0 : Fin 2))) (x2 (ix3 (0 : Fin 1) p (⟨0, by decide⟩ : Fin 4096)))
  else if q = 4097 then
    if edgeRow i p.val then Cert.Spec.zero
    else Cert.Spec.ghost (x0 (ix2 (1 : Fin 2) (1 : Fin 2))) (x1 (ix2 (1 : Fin 2) (1 : Fin 2))) (x2 (ix3 (0 : Fin 1) p (⟨4095, by decide⟩ : Fin 4096)))
  else x2 (ix3 (0 : Fin 1) p (⟨(q - 1) % 4096, Nat.mod_lt _ (by decide)⟩ : Fin 4096))

/-- `tileAt` at equal rows and columns. -/
theorem tileAt_congr (i : grid0.Coords) (x0 x1 : Vec F S2x2 .f32) (x2 : Vec F S1x256x4096 .f32) {p p' : Fin 256} {q q' : Nat}
    (hp : p = p') (hq : q = q') : tileAt i x0 x1 x2 p q = tileAt i x0 x1 x2 p' q' := by subst hp hq; rfl

/-- `tileAt` at an index's own row and column. -/
def tileFn (i : grid0.Coords) (x0 x1 : Vec F S2x2 .f32) (x2 : Vec F S1x256x4096 .f32) : Vec F S1x256x4098 .f32 :=
  fun J => tileAt i x0 x1 x2 (⟨(J 1).val, (J 1).isLt⟩ : Fin 256) (J 2).val

/-- The output tile is `tileFn`: each of the three stores' payloads agrees with it under its rectangle, and the
    rectangles cover the block. -/
theorem outTile_eq (i : grid0.Coords) (x0 x1 : Vec F S2x2 .f32) (x2 : Vec F S1x256x4096 .f32) :
    outTile i x0 x1 x2 = tileFn i x0 x1 x2 := by
  funext y
  unfold outTile
  refine View.canon_apply_of_pieces (tileFn i x0 x1 x2) _ ?_ y (outTile_cover _ _ _ y)
  intro pc hpc
  rcases List.mem_cons.mp hpc with rfl | hpc
  · intro x
    obtain ⟨a, p, z, rfl⟩ : ∃ (a : Fin 1) (p : Fin 256) (z : Fin 1), x = ix3 a p z := ⟨x 0, x 1, x 2, eq_ix3 x⟩
    have e1 : (⟨((colR.emb (ix3 a p z)) 1).val, ((colR.emb (ix3 a p z)) 1).isLt⟩ : Fin 256) = p :=
      Fin.ext (by show 0 + 1 * p.val = p.val; omega)
    have e2 : ((colR.emb (ix3 a p z)) 2).val = 4097 := by
      show 4097 + 1 * z.val = 4097; have := z.isLt; omega
    refine Eq.trans ?_ (tileAt_congr i x0 x1 x2 e1 e2).symm
    refine (payR_at i x0 x1 x2 a p z).trans ?_
    unfold tileAt
    rw [if_neg (show ¬((4097 : ℕ) = 0) by decide), if_pos (rfl : (4097 : ℕ) = 4097)]
  rcases List.mem_cons.mp hpc with rfl | hpc
  · intro x
    obtain ⟨a, p, c, rfl⟩ : ∃ (a : Fin 1) (p : Fin 256) (c : Fin 4096), x = ix3 a p c := ⟨x 0, x 1, x 2, eq_ix3 x⟩
    have e1 : (⟨((colM.emb (ix3 a p c)) 1).val, ((colM.emb (ix3 a p c)) 1).isLt⟩ : Fin 256) = p :=
      Fin.ext (by show 0 + 1 * p.val = p.val; omega)
    have e2 : ((colM.emb (ix3 a p c)) 2).val = c.val + 1 := by
      show 1 + 1 * c.val = c.val + 1; omega
    refine Eq.trans ?_ (tileAt_congr i x0 x1 x2 e1 e2).symm
    show k0_pay1 (k0_pay3 (View.ld x2 tileIn)) (ix3 a p c) = _
    rw [payM_eq]
    have hc : c.val < 4096 := c.isLt
    unfold tileAt
    rw [if_neg (show ¬(c.val + 1 = 0) by omega), if_neg (show ¬(c.val + 1 = 4097) by omega)]
    refine congrArg x2 (funext fun b => Fin.ext ?_)
    match b with
    | ⟨0, _⟩ => show a.val = 0; have := a.isLt; omega
    | ⟨1, _⟩ => rfl
    | ⟨2, _⟩ => show c.val = (c.val + 1 - 1) % 4096; omega
  rcases List.mem_cons.mp hpc with rfl | hpc
  · intro x
    obtain ⟨a, p, z, rfl⟩ : ∃ (a : Fin 1) (p : Fin 256) (z : Fin 1), x = ix3 a p z := ⟨x 0, x 1, x 2, eq_ix3 x⟩
    have e1 : (⟨((colL.emb (ix3 a p z)) 1).val, ((colL.emb (ix3 a p z)) 1).isLt⟩ : Fin 256) = p :=
      Fin.ext (by show 0 + 1 * p.val = p.val; omega)
    have e2 : ((colL.emb (ix3 a p z)) 2).val = 0 := by
      show 0 + 1 * z.val = 0; have := z.isLt; omega
    refine Eq.trans ?_ (tileAt_congr i x0 x1 x2 e1 e2).symm
    refine (payL_at i x0 x1 x2 a p z).trans ?_
    unfold tileAt
    rw [if_pos (rfl : (0 : ℕ) = 0)]
  exact absurd hpc List.not_mem_nil

/-- The output tile at an index whose row and column the caller names. -/
theorem outTile_apply (i : grid0.Coords) (x0 x1 : Vec F S2x2 .f32) (x2 : Vec F S1x256x4096 .f32) (J : S1x256x4098.Idx)
    (p : Fin 256) (q : Nat) (hp : (J 1).val = p.val) (hq : (J 2).val = q) :
    outTile i x0 x1 x2 J = tileAt i x0 x1 x2 p q := by
  rw [outTile_eq]
  exact tileAt_congr i x0 x1 x2 (Fin.ext hp) hq

end Cert.Kernel.Hand

end
-- ==== Proof.KBBlocks.lean ====
/-
  The block the write-back takes is the block of the specification.

  At grid point `t` = (component, grid row) the body runs on the two coefficient tables (their
  windows' one block, the whole table) and on the staged tile of 256 rows of the row-padded array:
  rows "grid row · 256 + p" of the component on the rows the fetch moved, anything below them when
  the tile overhangs the array (grid row 16: two rows moved).  The write-back takes the same leading
  rows of the output tile.  Row by row, the output tile is the specification's column padding of the
  input row (`tileAt`), so what is written back is block `t` of `Cert.Spec.cols` of the whole
  row-padded array.
-/
import proofs.«166649_j66305705115790_1_alg».proof.Proof.KBTileAt

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

/-! ## The index maps and the cuts, decided over the grid -/

/-- Over the 68 grid points: the coefficient windows stay at block (0, 0); the input and output windows sit at block
    (grid coordinate 0, grid coordinate 1, 0); their transfers move one component, all columns, and 256 rows — or the
    2 rows inside the array when the grid row is 16. -/
theorem idxFacts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 3) = (grid0.coords t 0).val ∧ win0_2.index t (1 : Fin 3) = (grid0.coords t 1).val
    ∧ win0_2.index t (2 : Fin 3) = 0
    ∧ win0_3.index t (0 : Fin 3) = (grid0.coords t 0).val ∧ win0_3.index t (1 : Fin 3) = (grid0.coords t 1).val
    ∧ win0_3.index t (2 : Fin 3) = 0
    ∧ win0_2.xsize (grid0.coords t) (0 : Fin 3) = 1
    ∧ win0_2.xsize (grid0.coords t) (1 : Fin 3) = (if (grid0.coords t 1).val < 16 then 256 else 2)
    ∧ win0_2.xsize (grid0.coords t) (2 : Fin 3) = 4096
    ∧ win0_3.xsize (grid0.coords t) (0 : Fin 3) = 1
    ∧ win0_3.xsize (grid0.coords t) (1 : Fin 3) = (if (grid0.coords t 1).val < 16 then 256 else 2)
    ∧ win0_3.xsize (grid0.coords t) (2 : Fin 3) = 4098 :=
  (by decide +kernel : ∀ t : Fin grid0.N, _)

/-! ## The input blocks -/

/-- A coefficient window's block is the whole table. -/
theorem read_coef0 (t : Fin cfg0.N) (a1 : Vec F S2x2 .f32) (y : S2x2.Idx) :
    (win0_0.blk t).view.read (Elt F) a1 y = a1 y := by
  obtain ⟨e00, e01, -⟩ := idxFacts t
  show a1 ((win0_0.blk t).view.emb y) = a1 y
  refine congrArg a1 (funext fun a => Fin.ext ?_)
  match a with
  | ⟨0, _⟩ => show win0_0.index t (0 : Fin 2) * 2 + 1 * (y 0).val = (y 0).val; rw [e00]; omega
  | ⟨1, _⟩ => show win0_0.index t (1 : Fin 2) * 2 + 1 * (y 1).val = (y 1).val; rw [e01]; omega

/-- Likewise the second table's. -/
theorem read_coef1 (t : Fin cfg0.N) (a2 : Vec F S2x2 .f32) (y : S2x2.Idx) :
    (win0_1.blk t).view.read (Elt F) a2 y = a2 y := by
  obtain ⟨-, -, e10, e11, -⟩ := idxFacts t
  show a2 ((win0_1.blk t).view.emb y) = a2 y
  refine congrArg a2 (funext fun a => Fin.ext ?_)
  match a with
  | ⟨0, _⟩ => show win0_1.index t (0 : Fin 2) * 2 + 1 * (y 0).val = (y 0).val; rw [e10]; omega
  | ⟨1, _⟩ => show win0_1.index t (1 : Fin 2) * 2 + 1 * (y 1).val = (y 1).val; rw [e11]; omega

/-- The staged input tile at a row the fetch moved: the row-padded array's element at the named index. -/
theorem fill_at (t : Fin cfg0.N) (r : Vec F S4x4098x4096 .f32) (d : Vec F S1x256x4096 .f32) (p : Fin 256) (c : Fin 4096)
    (hp : p.val < win0_2.xsize (grid0.coords t) (1 : Fin 3)) (k : S4x4098x4096.Idx)
    (hk0 : (k 0).val = (grid0.coords t 0).val) (hk1 : (k 1).val = (grid0.coords t 1).val * 256 + p.val) (hk2 : (k 2).val = c.val) :
    win0_2.fill (grid0.coords t) d ((win0_2.blk t).view.read (Elt F) r) (ix3 (0 : Fin 1) p c) = r k := by
  obtain ⟨-, -, -, -, e20, e21, e22, -, -, -, x20, x21, x22, -⟩ := idxFacts t
  have hm : win0_2.moved (grid0.coords t) (ix3 (0 : Fin 1) p c) = true :=
    (win0_2.moved_iff (grid0.coords t) _).mpr fun a =>
      match a with
      | ⟨0, _⟩ => by show 0 < win0_2.xsize (grid0.coords t) (0 : Fin 3); rw [x20]; omega
      | ⟨1, _⟩ => hp
      | ⟨2, _⟩ => by show c.val < win0_2.xsize (grid0.coords t) (2 : Fin 3); rw [x22]; exact c.isLt
  unfold Window.fill
  rw [dif_pos hm]
  show r ((win0_2.blk t).view.emb _) = r k
  refine congrArg r (funext fun a => Fin.ext ?_)
  match a with
  | ⟨0, _⟩ => show win0_2.index t (0 : Fin 3) * 1 + 1 * 0 = (k 0).val; rw [e20, hk0]; omega
  | ⟨1, _⟩ => show win0_2.index t (1 : Fin 3) * 256 + 1 * p.val = (k 1).val; rw [e21, hk1]; omega
  | ⟨2, _⟩ => show win0_2.index t (2 : Fin 3) * 4096 + 1 * c.val = (k 2).val; rw [e22, hk2]; omega

/-! ## The tile against the specification -/

/-- The tile's element at row `p` and the column of `K` is the column-padded array's at `K`, when `K` lies in row
    "grid row · 256 + `p`" and the tile's inputs are the tables and the matching row of the row-padded array. -/
theorem tileAt_eq_cols (i : grid0.Coords) (X0 X1 a1 a2 : Vec F S2x2 .f32) (X2 : Vec F S1x256x4096 .f32) (r : Vec F S4x4098x4096 .f32)
    (p : Fin 256) (K : Cert.Spec.SOut.Idx)
    (hK1 : (K 1).val = (i 1).val * 256 + p.val)
    (h0 : ∀ y, X0 y = a1 y) (h1 : ∀ y, X1 y = a2 y)
    (h2 : ∀ c : Fin 4096, X2 (ix3 (0 : Fin 1) p c)
      = r (ix3 (⟨(K 0).val, (K 0).isLt⟩ : Fin 4) (⟨(K 1).val, (K 1).isLt⟩ : Fin 4098) c)) :
    tileAt i X0 X1 X2 p (K 2).val = Cert.Spec.cols r a1 a2 K := by
  have hE : edgeRow i p.val ↔ ((K 1).val = 0 ∨ (K 1).val = 4097) := by unfold edgeRow; rw [hK1]
  unfold tileAt Cert.Spec.cols
  by_cases q0 : (K 2).val = 0
  · rw [if_pos q0, if_pos q0]
    by_cases hedge : edgeRow i p.val
    · rw [if_pos hedge, if_pos (hE.mp hedge)]
    · rw [if_neg hedge, if_neg (mt hE.mpr hedge), h0, h1, h2]
  rw [if_neg q0, if_neg q0]
  by_cases q1 : (K 2).val = 4097
  · rw [if_pos q1, if_pos q1]
    by_cases hedge : edgeRow i p.val
    · rw [if_pos hedge, if_pos (hE.mp hedge)]
    · rw [if_neg hedge, if_neg (mt hE.mpr hedge), h0, h1, h2]
  rw [if_neg q1, if_neg q1, h2]

/-! ## The block the write-back takes -/

/-- What the write-back at point `t` takes from the output tile is block `t` of the column-padded array: the rows of
    the tile inside the array read only staged rows the fetch moved, so the filler `d` below them drops out. -/
theorem cut_outTile (t : Fin cfg0.N) (a1 a2 : Vec F S2x2 .f32) (r : Vec F S4x4098x4096 .f32) (d : Vec F S1x256x4096 .f32) :
    win0_3.cut (grid0.coords t)
        (outTile (grid0.coords t) ((win0_0.blk t).view.read (Elt F) a1) ((win0_1.blk t).view.read (Elt F) a2)
          (win0_2.fill (grid0.coords t) d ((win0_2.blk t).view.read (Elt F) r)))
      = (win0_3.blk t).view.read (Elt F) (Cert.Spec.cols r a1 a2) := by
  obtain ⟨-, -, -, -, -, -, -, e30, e31, e32, -, x21, -, x30, x31, x32⟩ := idxFacts t
  funext j
  have hj0 : (j 0).val < win0_3.xsize (grid0.coords t) (0 : Fin 3) := (j 0).isLt
  have hj1 : (j 1).val < win0_3.xsize (grid0.coords t) (1 : Fin 3) := (j 1).isLt
  have hp : (j 1).val < 256 := by rw [x31] at hj1; split at hj1 <;> omega
  have hp2 : (j 1).val < win0_2.xsize (grid0.coords t) (1 : Fin 3) := by rw [x21, ← x31]; exact hj1
  rw [x30] at hj0
  show outTile (grid0.coords t) _ _ _ (win0_3.xinj (grid0.coords t) j) = Cert.Spec.cols r a1 a2 ((win0_3.blk t).view.emb j)
  refine (outTile_apply (grid0.coords t) _ _ _ _ ⟨(j 1).val, hp⟩ (j 2).val rfl rfl).trans ?_
  have hK2 : (((win0_3.blk t).view.emb j) 2).val = (j 2).val := by
    show win0_3.index t (2 : Fin 3) * 4098 + 1 * (j 2).val = (j 2).val; rw [e32]; omega
  refine (tileAt_congr _ _ _ _ rfl hK2.symm).trans ?_
  refine tileAt_eq_cols (grid0.coords t) _ _ a1 a2 _ r ⟨(j 1).val, hp⟩ _ ?_ (read_coef0 t a1) (read_coef1 t a2) ?_
  · show win0_3.index t (1 : Fin 3) * 256 + 1 * (j 1).val = (grid0.coords t 1).val * 256 + (j 1).val
    rw [e31]; omega
  · intro c
    refine fill_at t r d ⟨(j 1).val, hp⟩ c hp2 _ ?_ ?_ rfl
    · show win0_3.index t (0 : Fin 3) * 1 + 1 * (j 0).val = (grid0.coords t 0).val
      rw [e30]; omega
    · show win0_3.index t (1 : Fin 3) * 256 + 1 * (j 1).val = (grid0.coords t 1).val * 256 + (j 1).val
      rw [e31]; omega

end Cert.Kernel.Hand

end
-- ==== Proof.KBFrame.lean ====
/-
  The padded program runs, faults nowhere and leaves its arguments alone; and its result array ends
  holding the column padding of the row-padded array.

  The proof data of the one region: every array as the region finds it; after the body at a grid
  point the coefficient tables' blocks and the input tile's rows as fetched, and the output tile at
  the block of `Cert.Spec.cols` there — on the rows inside the array.  The last row tile overhangs
  the 4098 rows: below the array's end its staging blocks hold words nothing names, and the body's
  obligation is stated on the rows inside the array only.
-/
import proofs.«166649_j66305705115790_1_alg».proof.Proof.KBBody
import proofs.«166649_j66305705115790_1_alg».proof.Proof.KBEntry
import proofs.«166649_j66305705115790_1_alg».proof.Proof.Spec
import proofs.«166649_j66305705115790_1_alg».proof.Proof.KBCover
import proofs.«166649_j66305705115790_1_alg».proof.Proof.KBBlocks
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The result the region computes: the column padding of the row-padded array it finds. -/
def result (c : Dev nD) : Vec F S4x4098x4098 .f32 :=
  Cert.Spec.cols (V m c main_v18) (V m c main_arg1) (V m c main_arg2)

/-- Its block at point `t`: the part of the output tile inside the array. -/
def outBlk (c : Dev nD) (t : Fin cfg0.N) : ((cfg0.win 3).xblock (cfg0.grid.coords t)).Idx → Elt F (cfg0.win 3).elt :=
  ((cfg0.win 3).blk t).view.read (Elt F) (result m c)

/-- The proof data of the one pipeline on core `c`. Past the array's end the two clipped windows'
    blocks are filled out with zero, a word nothing reads. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (cfg0.win 2).fill (cfg0.grid.coords t) (fun _ => Cert.Spec.zero) (iblk m c 2 t)
    | ⟨3, _⟩ => (cfg0.win 3).fill (cfg0.grid.coords t) (fun _ => Cert.Spec.zero) (outBlk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = (cfg0.win 2).fill (cfg0.grid.coords t) (fun _ => Cert.Spec.zero) (iblk m c 2 t) := by dsimp only [dats]
theorem after0_3 (c : Dev nD) (t : Fin cfg0.N) :
    (dats m 0 c).after 3 t = (cfg0.win 3).fill (cfg0.grid.coords t) (fun _ => Cert.Spec.zero) (outBlk m c t) := by dsimp only [dats]

/-- The coefficient tables' staging blocks hold the tables at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
/-- The input tile is fetched at every point: its rows inside the array, anything below them. -/
theorem before0_2 (c : Dev nD) (t : Fin cfg0.N) (d) :
    (dats m 0 c).before 2 t d = (cfg0.win 2).fill (cfg0.grid.coords t) d (iblk m c 2 t) := by
  rw [(dats m 0 c).before_fetched 2 t (fetch0_2 t) d]
  unfold Dat.fetched Dat.blockOf iblk; rw [A_eq]
/-- The output tile is written back at every point: the body finds its buffer at anything. -/
theorem before0_3 (c : Dev nD) (t : Fin cfg0.N) (d) : (dats m 0 c).before 3 t d = d :=
  (dats m 0 c).before_out_reset 3 rfl t
    (by by_cases h : t.val = 0
        · exact .inl h
        · exact .inr ⟨h, flush0_3 _⟩) d

/-! ## The body's obligation -/

/-- At every point the body runs from the buffers as the pipeline hands them to what the proof data
    says it leaves: the tables and the input tile as found; the output tile, on the rows inside the
    array, the block of the column padding there — whatever lies below the array's end in the input
    tile does not reach those rows. -/
theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before0_0 m c t d0, before0_1 m c t d1, before0_2 m c t d2, before0_3 m c t d3]
  iapply (sound_kernel (F := F) c Set.univ (grid0.coords t) _ _ _ _ _ _ _ _ (iblk m c 0 t) (iblk m c 1 t)
    ((cfg0.win 2).fill (cfg0.grid.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · rw [after0_0]; iexact H0
  isplitl [H1]; · rw [after0_1]; iexact H1
  isplitl [H2]
  · iexists d2
    rw [after0_2, Window.cut_fill]; iexact H2
  · iexists (outTile (grid0.coords t) (iblk m c 0 t) (iblk m c 1 t) ((cfg0.win 2).fill (cfg0.grid.coords t) d2 (iblk m c 2 t)))
    rw [after0_3, Window.cut_fill]
    have hcut : win0_3.cut (grid0.coords t)
        (outTile (grid0.coords t) (iblk m c 0 t) (iblk m c 1 t) ((cfg0.win 2).fill (cfg0.grid.coords t) d2 (iblk m c 2 t)))
        = outBlk m c t :=
      cut_outTile t (V m c main_arg1) (V m c main_arg2) (V m c main_v18) d2
    rw [← hcut, Window.fill_cut]; iexact H3

/-! ## The run -/

set_option backward.isDefEq.respectTransparency.types false in
/-- Every weakly fair execution of the program terminates, nothing faulting; every array of the
    region ends at what the write-backs make of it and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The result array after the run: every flushed block is its block of `result`, and the blocks
    cover the array. -/
theorem final_out (c : Dev nD) : (dats m 0 c).arrAt 3 cfg0.N = result m c :=
  (dats m 0 c).arrAt_eq_of_cover 3 (result m c)
    (fun t _ => by
      show (cfg0.win 3).cut (cfg0.grid.coords t) ((dats m 0 c).after 3 t) = _
      rw [after0_3, Window.cut_fill]; rfl)
    (cover_out c)

/-- The run with the result array named and the three arguments unchanged. -/
theorem run_value : θ_run defs (onTc (τ := τ) (main (F := F))) ⟨m, fun _ => 0, ρ⟩ (fun r => ∀ c : Dev nD,
      r.2.mem ((c.tc : Thread nD τ).loc main_v19) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 3).trans (final_out m c),
     ((h c).2 main_arg0 (Pipeline.mem_restRefs_of main_arg0 rfl (by decide))).trans (V_main_arg0 m c),
     ((h c).1 0).trans (((dats m 0 c).arrAt_in 0 rfl _).trans ((A_eq m c 0).trans (V_main_arg1 m c))),
     ((h c).1 1).trans (((dats m 0 c).arrAt_in 1 rfl _).trans ((A_eq m c 1).trans (V_main_arg2 m c)))⟩) (run_main m ρ)

/-- The frame: the program runs and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_value m ρ)

end Cert.Kernel.Hand

end
-- ==== Proof.KITile.lean ====
/-
  What the column-padding body leaves in its output block, as one function of its input blocks.

  The body reads the two coefficient tables and one tile of 256 rows of the row-padded array, and
  writes the tile of the result in three pieces: column 0 (the left ghost column), columns 1 … 4096
  (the rows themselves) and column 4097 (the right ghost column).  The three pieces tile the output
  block, so after the body the block is the canonical function of the three stores.
-/
import proofs.«166649_j66305705115790_1_alg».proof.Proof.Gen.KernelIdeal.Launch
import proofs.«166649_j66305705115790_1_alg».proof.Proof.Gen.KernelIdeal.Skeleton
import proofs.«166649_j66305705115790_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The coefficient cells `[1, 0]` and `[1, 1]` of a 2 × 2 table. -/
abbrev cell10 : Rect S2x2 := Rect.unit (s := S2x2) ![1, 0] S1x1.size inb_S2x2_S1x1_1_0
abbrev cell11 : Rect S2x2 := Rect.unit (s := S2x2) ![1, 1] S1x1.size inb_S2x2_S1x1_1_1
/-- The whole input tile. -/
abbrev tileIn : Rect S1x256x4096 := Rect.unit (s := S1x256x4096) ![0, 0, 0] S1x256x4096.size inb_S1x256x4096_S1x256x4096_0_0_0
/-- The output tile's left ghost column, its middle columns and its right ghost column. -/
abbrev colL : Rect S1x256x4098 := Rect.unit (s := S1x256x4098) ![0, 0, 0] S1x256x1.size inb_S1x256x4098_S1x256x1_0_0_0
abbrev colM : Rect S1x256x4098 := Rect.unit (s := S1x256x4098) ![0, 0, 1] S1x256x4096.size inb_S1x256x4098_S1x256x4096_0_0_1
abbrev colR : Rect S1x256x4098 := Rect.unit (s := S1x256x4098) ![0, 0, 4097] S1x256x1.size inb_S1x256x4098_S1x256x1_0_0_4097

/-! ## What the body leaves in the output block -/

/-- The output tile after the body at grid coordinates `i`, from the two coefficient tables `x0`, `x1`
    and the input tile `x2`: its three stores as pieces, the last first. -/
def outTile (i : grid0.Coords) (x0 x1 : Vec F S2x2 .f32) (x2 : Vec F S1x256x4096 .f32) : Vec F S1x256x4098 .f32 :=
  View.canon [⟨colR, k0_pay2 (k0_pay6 i (View.ld x0 cell11) (View.ld x1 cell11) (View.ld x2 tileIn))⟩,
    ⟨colM, k0_pay1 (k0_pay3 (View.ld x2 tileIn))⟩,
    ⟨colL, k0_pay7 i (View.ld x0 cell10) (View.ld x1 cell10) (View.ld x2 tileIn)⟩]

/-- The three stores tile the block, so they cover it. -/
theorem outTile_cover (p0 : Vec F S1x256x1 .f32) (p1 : Vec F S1x256x4096 .f32) (p2 : Vec F S1x256x1 .f32) (y : S1x256x4098.Idx) :
    ∃ pc ∈ ([⟨colR, p0⟩, ⟨colM, p1⟩, ⟨colL, p2⟩] : List (View.Piece (Elt F) S1x256x4098 .f32)), y ∈ pc.1.set :=
  View.cover_of_tiledBy [⟨colR, p0⟩, ⟨colM, p1⟩, ⟨colL, p2⟩] ![1, 256, 1] (by sl_kernel_rfl) y

end Cert.KernelIdeal.Hand

end
-- ==== Proof.KIBody.lean ====
/-
  The column-padding body, run on whole staging blocks: it leaves its inputs as they were and the
  output block at the canonical function of its three stores (`outTile`).
-/
import proofs.«166649_j66305705115790_1_alg».proof.Proof.KITile

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's triple -/

set_option maxHeartbeats 1000000 in
/-- The body on whole staging memrefs — the coefficient tables at `x0`, `x1`, the input tile at `x2`,
    the output tile at anything — runs to the continuation holding the inputs as they were and the
    output tile at `outTile` of them. -/
theorem sound_kernel (c : Dev nD) (E : Set ℕ) (i : grid0.Coords)
    (arg2 : Memref sig .tc .vmem S2x2 .f32) (harg2 : arg2.IsWhole) (arg3 : Memref sig .tc .vmem S2x2 .f32) (harg3 : arg3.IsWhole)
    (arg4 : Memref sig .tc .vmem S1x256x4096 .f32) (harg4 : arg4.IsWhole) (arg5 : Memref sig .tc .vmem S1x256x4098 .f32) (harg5 : arg5.IsWhole)
    (x0 x1 : Vec F S2x2 .f32) (x2 : Vec F S1x256x4096 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outTile i x0 x1 x2)) -∗ K ⟨⟩))
      ⊢ wp frame (wpE (defs₀ (F := F)) Variants.none c none) E (cc0__col_pad_kernel i arg2 harg2 arg3 harg3 arg4 harg4 arg5 harg5) K := by
  simp only [cc0__col_pad_kernel_eq_skeleton]; unfold cc0__col_pad_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outTile_cover _ _ _)

end Cert.KernelIdeal.Hand

end
-- ==== Proof.KIEntry.lean ====
/-
  The padded program up to its one region: nineteen host operations build the row-padded array
  (ghost rows above and below the field), then the region pads the columns.  This module names what
  every buffer holds when the region is entered, shows that the host operations leave the three
  argument arrays alone, and states the program as "host operations, then the region".
-/
import proofs.«166649_j66305705115790_1_alg».proof.Proof.Gen.KernelIdeal.Launch
import proofs.«166649_j66305705115790_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers when the region is entered: the launch contents after the host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the field array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- Nor the table of constants, -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- nor the table of factors. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-- Window `w`'s block at point `t`, read off its array as the region finds it: the block's part
    inside the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Hand

end
-- ==== Proof.KICover.lean ====
/-
  The output tiles cover the result array: the cell in row `ρ` of component `a` lies in the tile of
  grid point `(a, ρ / 256)` — also in the last row tile, which overhangs the 4098 rows and is cut to
  its two rows inside the array.
-/
import proofs.«166649_j66305705115790_1_alg».proof.Proof.Gen.KernelIdeal.Launch
import proofs.«166649_j66305705115790_1_alg».proof.Proof.Gen.KernelIdeal.Points
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem

/-- The output window at grid point `t` (component `t / 17`, row tile `t % 17`): its block index, and
    the sizes of the part of the block inside the array — two rows for the last row tile. -/
theorem out_block : ∀ t : Fin cfg0.N,
    win0_3.index t (0 : Fin 3) = t.val / 17 ∧ win0_3.index t (1 : Fin 3) = t.val % 17 ∧ win0_3.index t (2 : Fin 3) = 0
    ∧ win0_3.xsize (grid0.coords t) (0 : Fin 3) = 1
    ∧ win0_3.xsize (grid0.coords t) (1 : Fin 3) = (if t.val % 17 = 16 then 2 else 256)
    ∧ win0_3.xsize (grid0.coords t) (2 : Fin 3) = 4098 :=
  (by decide +kernel : ∀ t : Fin grid0.N,
    win0_3.index t (0 : Fin 3) = t.val / 17 ∧ win0_3.index t (1 : Fin 3) = t.val % 17 ∧ win0_3.index t (2 : Fin 3) = 0
    ∧ win0_3.xsize (grid0.coords t) (0 : Fin 3) = 1
    ∧ win0_3.xsize (grid0.coords t) (1 : Fin 3) = (if t.val % 17 = 16 then 2 else 256)
    ∧ win0_3.xsize (grid0.coords t) (2 : Fin 3) = 4098)

/-- Every cell of the result array is in the block some grid point writes back. -/
theorem cover_out (c : Dev nD) (i : ((cfg0.win 3).arr.view.loc (c.tc : Thread nD τ)).2.ty.Idx) :
    ∃ t : Fin cfg0.N, (cfg0.win 3).flush t = true ∧ i ∈ ((cfg0.win 3).blk t).view.set := by
  have h0 : (i 0).val < 4 := (i 0).isLt
  have h1 : (i 1).val < 4098 := (i 1).isLt
  have h2 : (i 2).val < 4098 := (i 2).isLt
  have hN : (i 0).val * 17 + (i 1).val / 256 < cfg0.N := by
    show _ < grid0.N; rw [N_0]; omega
  refine ⟨⟨(i 0).val * 17 + (i 1).val / 256, hN⟩, flush0_3 _, ?_⟩
  show i ∈ ((View.whole main_v19).slice (win0_3.rect ⟨(i 0).val * 17 + (i 1).val / 256, hN⟩)).set
  rw [View.set_slice_whole, Rect.mem_set_unit]
  obtain ⟨e0, e1, e2, s0, s1, s2⟩ := out_block ⟨(i 0).val * 17 + (i 1).val / 256, hN⟩
  have z0 : win0_3.size (0 : Fin 3) = 1 := rfl
  have z1 : win0_3.size (1 : Fin 3) = 256 := rfl
  have z2 : win0_3.size (2 : Fin 3) = 4098 := rfl
  intro a
  match a with
  | ⟨0, _⟩ =>
    show win0_3.index _ (0 : Fin 3) * win0_3.size (0 : Fin 3) ≤ (i 0).val
      ∧ (i 0).val < win0_3.index _ (0 : Fin 3) * win0_3.size (0 : Fin 3) + win0_3.xsize _ (0 : Fin 3)
    rw [e0, s0, z0]; dsimp only; omega
  | ⟨1, _⟩ =>
    show win0_3.index _ (1 : Fin 3) * win0_3.size (1 : Fin 3) ≤ (i 1).val
      ∧ (i 1).val < win0_3.index _ (1 : Fin 3) * win0_3.size (1 : Fin 3) + win0_3.xsize _ (1 : Fin 3)
    rw [e1, s1, z1]; dsimp only; split <;> omega
  | ⟨2, _⟩ =>
    show win0_3.index _ (2 : Fin 3) * win0_3.size (2 : Fin 3) ≤ (i 2).val
      ∧ (i 2).val < win0_3.index _ (2 : Fin 3) * win0_3.size (2 : Fin 3) + win0_3.xsize _ (2 : Fin 3)
    rw [e2, s2, z2]; omega

end Cert.KernelIdeal.Hand

end
-- ==== Proof.KITileAt.lean ====
/-
  The output tile of the column-padding body as ONE function of the index.

  The body's three stores tile the output block: column 0, columns 1 … 4096 and column 4097.  Read
  at row `p` and column `q`, the block holds
    * in column 0 the virtual point `c + f · x` of the row's first input element, with the
      coefficients at `[1, 0]` of the two tables,
    * in column 4097 the virtual point of the row's last input element, coefficients at `[1, 1]`,
    * in both, zero instead when the row is the array's row 0 or row 4097 (the row number is the grid
      row times 256 plus `p`, computed in 32-bit words; the grid row is below 17, so nothing wraps),
    * in column `q` between them the input element of column `q - 1`.
  Everything here is generic in the float instance: the arithmetic is never evaluated.
-/
import proofs.«166649_j66305705115790_1_alg».proof.Proof.KITile
import proofs.«166649_j66305705115790_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

/-! ## The row number, in 32-bit words -/

/-- The zero-offset triple, however spelt. -/
theorem hz3 : (![0, 0, 0] : Fin 3 → Nat) = fun _ => 0 := funext fun a => by fin_cases a <;> rfl

/-- Grid row `n` below 17 and tile row `p` below 256: `n · 256 + p` does not wrap in 32 bits. -/
theorem rowWord (n p : Nat) (hn : n < 17) (hp : p < 256) :
    IntOp.addi (Scalar.muli (BitVec.ofNat 32 n) 256#32) (BitVec.ofNat 32 p) = BitVec.ofNat 32 (n * 256 + p) := by
  unfold IntOp.addi Scalar.muli IntOp.muli
  apply BitVec.eq_of_toNat_eq
  simp only [BitVec.toNat_add, BitVec.toNat_mul, BitVec.toNat_ofNat]
  omega

/-- The body's test "row number is 0 or 4097" on a word that holds the number `m`. -/
theorem edgeBit (m : Nat) (hm : m < 2 ^ 32) :
    IntOp.ori (IntOp.cmpi .eq (BitVec.ofNat 32 m) 0#32) (IntOp.cmpi .eq (BitVec.ofNat 32 m) 4097#32)
      = if m = 0 ∨ m = 4097 then 1#1 else 0#1 := by
  by_cases h0 : m = 0
  · subst h0; decide
  by_cases h1 : m = 4097
  · subst h1; decide
  rw [if_neg (by omega)]
  have e0 : (BitVec.ofNat 32 m == 0#32) = false := by
    rw [beq_eq_false_iff_ne]; intro h
    have := congrArg BitVec.toNat h
    simp only [BitVec.toNat_ofNat] at this; omega
  have e1 : (BitVec.ofNat 32 m == 4097#32) = false := by
    rw [beq_eq_false_iff_ne]; intro h
    have := congrArg BitVec.toNat h
    simp only [BitVec.toNat_ofNat] at this; omega
  unfold IntOp.ori IntOp.cmpi
  simp only [e0, e1]
  decide

/-- A select on a decided bit is the `if`. -/
theorem select_ite {α : Type} (P : Prop) [Decidable P] (a b : α) :
    Scalar.select (if P then 1#1 else 0#1) a b = if P then a else b := by
  by_cases h : P
  · rw [if_pos h, if_pos h]; exact select_one a b
  · rw [if_neg h, if_neg h]; exact select_zero a b

/-- The body's boundary mask at tile row `p`: set iff the row is the array's row 0 or 4097. -/
theorem pay4_at (i : grid0.Coords) (p : Fin 256) (z : Fin 1) :
    k0_pay4 i (ix2 p z) = if (i 1).val * 256 + p.val = 0 ∨ (i 1).val * 256 + p.val = 4097 then 1#1 else 0#1 := by
  have hi : (i 1).val < 17 := (i 1).isLt
  have hp : p.val < 256 := p.isLt
  unfold k0_pay4
  show IntOp.ori (IntOp.cmpi .eq (IntOp.addi (Scalar.muli (BitVec.ofNat 32 (i 1).val) 256#32) (iota .tc S256x1 32 [0] iota_S256x1_d0_w32 (ix2 p z))) 0#32)
      (IntOp.cmpi .eq (IntOp.addi (Scalar.muli (BitVec.ofNat 32 (i 1).val) 256#32) (iota .tc S256x1 32 [0] iota_S256x1_d0_w32 (ix2 p z))) 4097#32) = _
  rw [iota_single_apply]
  show IntOp.ori (IntOp.cmpi .eq (IntOp.addi (Scalar.muli (BitVec.ofNat 32 (i 1).val) 256#32) (BitVec.ofNat 32 p.val)) 0#32)
      (IntOp.cmpi .eq (IntOp.addi (Scalar.muli (BitVec.ofNat 32 (i 1).val) 256#32) (BitVec.ofNat 32 p.val)) 4097#32) = _
  rw [rowWord _ _ hi hp, edgeBit _ (by omega)]

/-! ## The payloads at an index -/

/-- The load of the whole input tile reads the tile. -/
theorem ld_tileIn (x2 : Vec F S1x256x4096 .f32) : View.ld x2 tileIn = x2 :=
  View.ld_unit_zero hz3 _ x2

/-- The input tile without its unit axis, at row `p` and column `q`. -/
theorem pay3_at (x2 : Vec F S1x256x4096 .f32) (p : Fin 256) (q : Fin 4096) :
    k0_pay3 x2 (ix2 p q) = x2 (ix3 (0 : Fin 1) p q) := by
  unfold k0_pay3
  refine shapeCast_apply _ _ _ (ix3 (0 : Fin 1) p q) ?_
  rw [Shape.rowMajor_val_two, Shape.rowMajor_val_three]
  show ((0 : ℕ) * 256 + p.val) * 4096 + q.val = p.val * 4096 + q.val
  omega

/-- The scalar the body extracts from its load of cell `[1, b]` of a coefficient table. -/
theorem coef_at (x : Vec F S2x2 .f32) (b : Fin 2) (inb : ∀ a, (![1, b.val] : Fin 2 → Nat) a + S1x1.size a ≤ S2x2.size a) :
    extractAt ![0, 0] (View.ld x (Rect.unit (s := S2x2) ![1, b.val] S1x1.size inb)) inpos_S1x1_p0_0 = x (ix2 (1 : Fin 2) b) := by
  unfold extractAt
  show x _ = x _
  refine congrArg x (funext fun a => Fin.ext ?_)
  match a with
  | ⟨0, _⟩ => show 1 + 1 * 0 = 1; rfl
  | ⟨1, _⟩ => show b.val + 1 * 0 = b.val; omega

theorem coef10 (x : Vec F S2x2 .f32) :
    extractAt ![0, 0] (View.ld x cell10) inpos_S1x1_p0_0 = x (ix2 (1 : Fin 2) (0 : Fin 2)) := coef_at x 0 _
theorem coef11 (x : Vec F S2x2 .f32) :
    extractAt ![0, 0] (View.ld x cell11) inpos_S1x1_p0_0 = x (ix2 (1 : Fin 2) (1 : Fin 2)) := coef_at x 1 _

/-- Column `c` of the input tile, sliced out as a 256 × 1 vector, at row `p`. -/
theorem col_at (x2 : Vec F S1x256x4096 .f32) (c : Fin 4096) (hs : S256x4096.Slices ![0, c.val] S256x1) (p : Fin 256) (z : Fin 1) :
    extractStridedSlice S256x1 ![0, c.val] (k0_pay3 x2) hs (ix2 p z) = x2 (ix3 (0 : Fin 1) p c) := by
  refine (extractStridedSlice_apply _ _ _ _ (ix2 p c) ?_).trans (pay3_at x2 p c)
  intro a
  match a with
  | ⟨0, _⟩ => show p.val = 0 + p.val; omega
  | ⟨1, _⟩ => show c.val = c.val + z.val; have := z.isLt; omega

theorem col0 (x2 : Vec F S1x256x4096 .f32) (p : Fin 256) (z : Fin 1) :
    extractStridedSlice S256x1 ![0, 0] (k0_pay3 x2) slices_S256x4096_o0_0_S256x1 (ix2 p z)
      = x2 (ix3 (0 : Fin 1) p (⟨0, by decide⟩ : Fin 4096)) := col_at x2 ⟨0, by decide⟩ _ p z
theorem col4095 (x2 : Vec F S1x256x4096 .f32) (p : Fin 256) (z : Fin 1) :
    extractStridedSlice S256x1 ![0, 4095] (k0_pay3 x2) slices_S256x4096_o0_4095_S256x1 (ix2 p z)
      = x2 (ix3 (0 : Fin 1) p (⟨4095, by decide⟩ : Fin 4096)) := col_at x2 ⟨4095, by decide⟩ _ p z

/-- Whether row `p` of the tile at grid coordinates `i` is the array's first or last row. -/
abbrev edgeRow (i : grid0.Coords) (p : Nat) : Prop := (i 1).val * 256 + p = 0 ∨ (i 1).val * 256 + p = 4097

/-- The left ghost column's payload at row `p`. -/
theorem payL_at (i : grid0.Coords) (x0 x1 : Vec F S2x2 .f32) (x2 : Vec F S1x256x4096 .f32) (a : Fin 1) (p : Fin 256) (z : Fin 1) :
    k0_pay7 i (View.ld x0 cell10) (View.ld x1 cell10) (View.ld x2 tileIn) (ix3 a p z)
      = if edgeRow i p.val then Cert.Spec.zero
        else Cert.Spec.ghost (x0 (ix2 (1 : Fin 2) (0 : Fin 2))) (x1 (ix2 (1 : Fin 2) (0 : Fin 2))) (x2 (ix3 (0 : Fin 1) p (⟨0, by decide⟩ : Fin 4096))) := by
  unfold k0_pay7
  rw [ld_tileIn]
  refine (shapeCast_apply _ _ _ (ix2 p z) ?_).trans ?_
  · rw [Shape.rowMajor_val_two, Shape.rowMajor_val_three]
    show p.val * 1 + z.val = (a.val * 256 + p.val) * 1 + z.val
    have := a.isLt; omega
  show Scalar.select (k0_pay4 i (ix2 p z)) (k0_pay5 (F := F) (ix2 p z))
    (FloatOps.addf (extractAt ![0, 0] (View.ld x0 cell10) inpos_S1x1_p0_0)
      (FloatOps.mulf (extractAt ![0, 0] (View.ld x1 cell10) inpos_S1x1_p0_0)
        (extractStridedSlice S256x1 ![0, 0] (k0_pay3 x2) slices_S256x4096_o0_0_S256x1 (ix2 p z)))) = _
  rw [pay4_at, select_ite, coef10, coef10, col0]
  rfl

/-- The right ghost column's payload at row `p`. -/
theorem payR_at (i : grid0.Coords) (x0 x1 : Vec F S2x2 .f32) (x2 : Vec F S1x256x4096 .f32) (a : Fin 1) (p : Fin 256) (z : Fin 1) :
    k0_pay2 (k0_pay6 i (View.ld x0 cell11) (View.ld x1 cell11) (View.ld x2 tileIn)) (ix3 a p z)
      = if edgeRow i p.val then Cert.Spec.zero
        else Cert.Spec.ghost (x0 (ix2 (1 : Fin 2) (1 : Fin 2))) (x1 (ix2 (1 : Fin 2) (1 : Fin 2))) (x2 (ix3 (0 : Fin 1) p (⟨4095, by decide⟩ : Fin 4096))) := by
  unfold k0_pay2 k0_pay6
  rw [ld_tileIn]
  refine (shapeCast_apply _ _ _ (ix2 p z) ?_).trans ?_
  · rw [Shape.rowMajor_val_two, Shape.rowMajor_val_three]
    show p.val * 1 + z.val = (a.val * 256 + p.val) * 1 + z.val
    have := a.isLt; omega
  show Scalar.select (k0_pay4 i (ix2 p z)) (k0_pay5 (F := F) (ix2 p z))
    (FloatOps.addf (extractAt ![0, 0] (View.ld x0 cell11) inpos_S1x1_p0_0)
      (FloatOps.mulf (extractAt ![0, 0] (View.ld x1 cell11) inpos_S1x1_p0_0)
        (extractStridedSlice S256x1 ![0, 4095] (k0_pay3 x2) slices_S256x4096_o0_4095_S256x1 (ix2 p z)))) = _
  rw [pay4_at, select_ite, coef11, coef11, col4095]
  rfl

/-- The middle store's payload is the input tile: a unit axis dropped and added again. -/
theorem payM_eq (x2 : Vec F S1x256x4096 .f32) : k0_pay1 (k0_pay3 (View.ld x2 tileIn)) = x2 := by
  rw [ld_tileIn]
  exact shapeCast_shapeCast x2 _ _

/-! ## The tile as one function of the index -/

/-- Row `p`, column `q` of the output tile at grid coordinates `i`. -/
def tileAt (i : grid0.Coords) (x0 x1 : Vec F S2x2 .f32) (x2 : Vec F S1x256x4096 .f32) (p : Fin 256) (q : Nat) : F .f32 :=
  if q = 0 then
    if edgeRow i p.val then Cert.Spec.zero
    else Cert.Spec.ghost (x0 (ix2 (1 : Fin 2) (0 : Fin 2))) (x1 (ix2 (1 : Fin 2) (0 : Fin 2))) (x2 (ix3 (0 : Fin 1) p (⟨0, by decide⟩ : Fin 4096)))
  else if q = 4097 then
    if edgeRow i p.val then Cert.Spec.zero
    else Cert.Spec.ghost (x0 (ix2 (1 : Fin 2) (1 : Fin 2))) (x1 (ix2 (1 : Fin 2) (1 : Fin 2))) (x2 (ix3 (0 : Fin 1) p (⟨4095, by decide⟩ : Fin 4096)))
  else x2 (ix3 (0 : Fin 1) p (⟨(q - 1) % 4096, Nat.mod_lt _ (by decide)⟩ : Fin 4096))

/-- `tileAt` at equal rows and columns. -/
theorem tileAt_congr (i : grid0.Coords) (x0 x1 : Vec F S2x2 .f32) (x2 : Vec F S1x256x4096 .f32) {p p' : Fin 256} {q q' : Nat}
    (hp : p = p') (hq : q = q') : tileAt i x0 x1 x2 p q = tileAt i x0 x1 x2 p' q' := by subst hp hq; rfl

/-- `tileAt` at an index's own row and column. -/
def tileFn (i : grid0.Coords) (x0 x1 : Vec F S2x2 .f32) (x2 : Vec F S1x256x4096 .f32) : Vec F S1x256x4098 .f32 :=
  fun J => tileAt i x0 x1 x2 (⟨(J 1).val, (J 1).isLt⟩ : Fin 256) (J 2).val

/-- The output tile is `tileFn`: each of the three stores' payloads agrees with it under its rectangle, and the
    rectangles cover the block. -/
theorem outTile_eq (i : grid0.Coords) (x0 x1 : Vec F S2x2 .f32) (x2 : Vec F S1x256x4096 .f32) :
    outTile i x0 x1 x2 = tileFn i x0 x1 x2 := by
  funext y
  unfold outTile
  refine View.canon_apply_of_pieces (tileFn i x0 x1 x2) _ ?_ y (outTile_cover _ _ _ y)
  intro pc hpc
  rcases List.mem_cons.mp hpc with rfl | hpc
  · intro x
    obtain ⟨a, p, z, rfl⟩ : ∃ (a : Fin 1) (p : Fin 256) (z : Fin 1), x = ix3 a p z := ⟨x 0, x 1, x 2, eq_ix3 x⟩
    have e1 : (⟨((colR.emb (ix3 a p z)) 1).val, ((colR.emb (ix3 a p z)) 1).isLt⟩ : Fin 256) = p :=
      Fin.ext (by show 0 + 1 * p.val = p.val; omega)
    have e2 : ((colR.emb (ix3 a p z)) 2).val = 4097 := by
      show 4097 + 1 * z.val = 4097; have := z.isLt; omega
    refine Eq.trans ?_ (tileAt_congr i x0 x1 x2 e1 e2).symm
    refine (payR_at i x0 x1 x2 a p z).trans ?_
    unfold tileAt
    rw [if_neg (show ¬((4097 : ℕ) = 0) by decide), if_pos (rfl : (4097 : ℕ) = 4097)]
  rcases List.mem_cons.mp hpc with rfl | hpc
  · intro x
    obtain ⟨a, p, c, rfl⟩ : ∃ (a : Fin 1) (p : Fin 256) (c : Fin 4096), x = ix3 a p c := ⟨x 0, x 1, x 2, eq_ix3 x⟩
    have e1 : (⟨((colM.emb (ix3 a p c)) 1).val, ((colM.emb (ix3 a p c)) 1).isLt⟩ : Fin 256) = p :=
      Fin.ext (by show 0 + 1 * p.val = p.val; omega)
    have e2 : ((colM.emb (ix3 a p c)) 2).val = c.val + 1 := by
      show 1 + 1 * c.val = c.val + 1; omega
    refine Eq.trans ?_ (tileAt_congr i x0 x1 x2 e1 e2).symm
    show k0_pay1 (k0_pay3 (View.ld x2 tileIn)) (ix3 a p c) = _
    rw [payM_eq]
    have hc : c.val < 4096 := c.isLt
    unfold tileAt
    rw [if_neg (show ¬(c.val + 1 = 0) by omega), if_neg (show ¬(c.val + 1 = 4097) by omega)]
    refine congrArg x2 (funext fun b => Fin.ext ?_)
    match b with
    | ⟨0, _⟩ => show a.val = 0; have := a.isLt; omega
    | ⟨1, _⟩ => rfl
    | ⟨2, _⟩ => show c.val = (c.val + 1 - 1) % 4096; omega
  rcases List.mem_cons.mp hpc with rfl | hpc
  · intro x
    obtain ⟨a, p, z, rfl⟩ : ∃ (a : Fin 1) (p : Fin 256) (z : Fin 1), x = ix3 a p z := ⟨x 0, x 1, x 2, eq_ix3 x⟩
    have e1 : (⟨((colL.emb (ix3 a p z)) 1).val, ((colL.emb (ix3 a p z)) 1).isLt⟩ : Fin 256) = p :=
      Fin.ext (by show 0 + 1 * p.val = p.val; omega)
    have e2 : ((colL.emb (ix3 a p z)) 2).val = 0 := by
      show 0 + 1 * z.val = 0; have := z.isLt; omega
    refine Eq.trans ?_ (tileAt_congr i x0 x1 x2 e1 e2).symm
    refine (payL_at i x0 x1 x2 a p z).trans ?_
    unfold tileAt
    rw [if_pos (rfl : (0 : ℕ) = 0)]
  exact absurd hpc List.not_mem_nil

/-- The output tile at an index whose row and column the caller names. -/
theorem outTile_apply (i : grid0.Coords) (x0 x1 : Vec F S2x2 .f32) (x2 : Vec F S1x256x4096 .f32) (J : S1x256x4098.Idx)
    (p : Fin 256) (q : Nat) (hp : (J 1).val = p.val) (hq : (J 2).val = q) :
    outTile i x0 x1 x2 J = tileAt i x0 x1 x2 p q := by
  rw [outTile_eq]
  exact tileAt_congr i x0 x1 x2 (Fin.ext hp) hq

end Cert.KernelIdeal.Hand

end
-- ==== Proof.KIBlocks.lean ====
/-
  The block the write-back takes is the block of the specification.

  At grid point `t` = (component, grid row) the body runs on the two coefficient tables (their
  windows' one block, the whole table) and on the staged tile of 256 rows of the row-padded array:
  rows "grid row · 256 + p" of the component on the rows the fetch moved, anything below them when
  the tile overhangs the array (grid row 16: two rows moved).  The write-back takes the same leading
  rows of the output tile.  Row by row, the output tile is the specification's column padding of the
  input row (`tileAt`), so what is written back is block `t` of `Cert.Spec.cols` of the whole
  row-padded array.
-/
import proofs.«166649_j66305705115790_1_alg».proof.Proof.KITileAt

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

/-! ## The index maps and the cuts, decided over the grid -/

/-- Over the 68 grid points: the coefficient windows stay at block (0, 0); the input and output windows sit at block
    (grid coordinate 0, grid coordinate 1, 0); their transfers move one component, all columns, and 256 rows — or the
    2 rows inside the array when the grid row is 16. -/
theorem idxFacts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 3) = (grid0.coords t 0).val ∧ win0_2.index t (1 : Fin 3) = (grid0.coords t 1).val
    ∧ win0_2.index t (2 : Fin 3) = 0
    ∧ win0_3.index t (0 : Fin 3) = (grid0.coords t 0).val ∧ win0_3.index t (1 : Fin 3) = (grid0.coords t 1).val
    ∧ win0_3.index t (2 : Fin 3) = 0
    ∧ win0_2.xsize (grid0.coords t) (0 : Fin 3) = 1
    ∧ win0_2.xsize (grid0.coords t) (1 : Fin 3) = (if (grid0.coords t 1).val < 16 then 256 else 2)
    ∧ win0_2.xsize (grid0.coords t) (2 : Fin 3) = 4096
    ∧ win0_3.xsize (grid0.coords t) (0 : Fin 3) = 1
    ∧ win0_3.xsize (grid0.coords t) (1 : Fin 3) = (if (grid0.coords t 1).val < 16 then 256 else 2)
    ∧ win0_3.xsize (grid0.coords t) (2 : Fin 3) = 4098 :=
  (by decide +kernel : ∀ t : Fin grid0.N, _)

/-! ## The input blocks -/

/-- A coefficient window's block is the whole table. -/
theorem read_coef0 (t : Fin cfg0.N) (a1 : Vec F S2x2 .f32) (y : S2x2.Idx) :
    (win0_0.blk t).view.read (Elt F) a1 y = a1 y := by
  obtain ⟨e00, e01, -⟩ := idxFacts t
  show a1 ((win0_0.blk t).view.emb y) = a1 y
  refine congrArg a1 (funext fun a => Fin.ext ?_)
  match a with
  | ⟨0, _⟩ => show win0_0.index t (0 : Fin 2) * 2 + 1 * (y 0).val = (y 0).val; rw [e00]; omega
  | ⟨1, _⟩ => show win0_0.index t (1 : Fin 2) * 2 + 1 * (y 1).val = (y 1).val; rw [e01]; omega

/-- Likewise the second table's. -/
theorem read_coef1 (t : Fin cfg0.N) (a2 : Vec F S2x2 .f32) (y : S2x2.Idx) :
    (win0_1.blk t).view.read (Elt F) a2 y = a2 y := by
  obtain ⟨-, -, e10, e11, -⟩ := idxFacts t
  show a2 ((win0_1.blk t).view.emb y) = a2 y
  refine congrArg a2 (funext fun a => Fin.ext ?_)
  match a with
  | ⟨0, _⟩ => show win0_1.index t (0 : Fin 2) * 2 + 1 * (y 0).val = (y 0).val; rw [e10]; omega
  | ⟨1, _⟩ => show win0_1.index t (1 : Fin 2) * 2 + 1 * (y 1).val = (y 1).val; rw [e11]; omega

/-- The staged input tile at a row the fetch moved: the row-padded array's element at the named index. -/
theorem fill_at (t : Fin cfg0.N) (r : Vec F S4x4098x4096 .f32) (d : Vec F S1x256x4096 .f32) (p : Fin 256) (c : Fin 4096)
    (hp : p.val < win0_2.xsize (grid0.coords t) (1 : Fin 3)) (k : S4x4098x4096.Idx)
    (hk0 : (k 0).val = (grid0.coords t 0).val) (hk1 : (k 1).val = (grid0.coords t 1).val * 256 + p.val) (hk2 : (k 2).val = c.val) :
    win0_2.fill (grid0.coords t) d ((win0_2.blk t).view.read (Elt F) r) (ix3 (0 : Fin 1) p c) = r k := by
  obtain ⟨-, -, -, -, e20, e21, e22, -, -, -, x20, x21, x22, -⟩ := idxFacts t
  have hm : win0_2.moved (grid0.coords t) (ix3 (0 : Fin 1) p c) = true :=
    (win0_2.moved_iff (grid0.coords t) _).mpr fun a =>
      match a with
      | ⟨0, _⟩ => by show 0 < win0_2.xsize (grid0.coords t) (0 : Fin 3); rw [x20]; omega
      | ⟨1, _⟩ => hp
      | ⟨2, _⟩ => by show c.val < win0_2.xsize (grid0.coords t) (2 : Fin 3); rw [x22]; exact c.isLt
  unfold Window.fill
  rw [dif_pos hm]
  show r ((win0_2.blk t).view.emb _) = r k
  refine congrArg r (funext fun a => Fin.ext ?_)
  match a with
  | ⟨0, _⟩ => show win0_2.index t (0 : Fin 3) * 1 + 1 * 0 = (k 0).val; rw [e20, hk0]; omega
  | ⟨1, _⟩ => show win0_2.index t (1 : Fin 3) * 256 + 1 * p.val = (k 1).val; rw [e21, hk1]; omega
  | ⟨2, _⟩ => show win0_2.index t (2 : Fin 3) * 4096 + 1 * c.val = (k 2).val; rw [e22, hk2]; omega

/-! ## The tile against the specification -/

/-- The tile's element at row `p` and the column of `K` is the column-padded array's at `K`, when `K` lies in row
    "grid row · 256 + `p`" and the tile's inputs are the tables and the matching row of the row-padded array. -/
theorem tileAt_eq_cols (i : grid0.Coords) (X0 X1 a1 a2 : Vec F S2x2 .f32) (X2 : Vec F S1x256x4096 .f32) (r : Vec F S4x4098x4096 .f32)
    (p : Fin 256) (K : Cert.Spec.SOut.Idx)
    (hK1 : (K 1).val = (i 1).val * 256 + p.val)
    (h0 : ∀ y, X0 y = a1 y) (h1 : ∀ y, X1 y = a2 y)
    (h2 : ∀ c : Fin 4096, X2 (ix3 (0 : Fin 1) p c)
      = r (ix3 (⟨(K 0).val, (K 0).isLt⟩ : Fin 4) (⟨(K 1).val, (K 1).isLt⟩ : Fin 4098) c)) :
    tileAt i X0 X1 X2 p (K 2).val = Cert.Spec.cols r a1 a2 K := by
  have hE : edgeRow i p.val ↔ ((K 1).val = 0 ∨ (K 1).val = 4097) := by unfold edgeRow; rw [hK1]
  unfold tileAt Cert.Spec.cols
  by_cases q0 : (K 2).val = 0
  · rw [if_pos q0, if_pos q0]
    by_cases hedge : edgeRow i p.val
    · rw [if_pos hedge, if_pos (hE.mp hedge)]
    · rw [if_neg hedge, if_neg (mt hE.mpr hedge), h0, h1, h2]
  rw [if_neg q0, if_neg q0]
  by_cases q1 : (K 2).val = 4097
  · rw [if_pos q1, if_pos q1]
    by_cases hedge : edgeRow i p.val
    · rw [if_pos hedge, if_pos (hE.mp hedge)]
    · rw [if_neg hedge, if_neg (mt hE.mpr hedge), h0, h1, h2]
  rw [if_neg q1, if_neg q1, h2]

/-! ## The block the write-back takes -/

/-- What the write-back at point `t` takes from the output tile is block `t` of the column-padded array: the rows of
    the tile inside the array read only staged rows the fetch moved, so the filler `d` below them drops out. -/
theorem cut_outTile (t : Fin cfg0.N) (a1 a2 : Vec F S2x2 .f32) (r : Vec F S4x4098x4096 .f32) (d : Vec F S1x256x4096 .f32) :
    win0_3.cut (grid0.coords t)
        (outTile (grid0.coords t) ((win0_0.blk t).view.read (Elt F) a1) ((win0_1.blk t).view.read (Elt F) a2)
          (win0_2.fill (grid0.coords t) d ((win0_2.blk t).view.read (Elt F) r)))
      = (win0_3.blk t).view.read (Elt F) (Cert.Spec.cols r a1 a2) := by
  obtain ⟨-, -, -, -, -, -, -, e30, e31, e32, -, x21, -, x30, x31, x32⟩ := idxFacts t
  funext j
  have hj0 : (j 0).val < win0_3.xsize (grid0.coords t) (0 : Fin 3) := (j 0).isLt
  have hj1 : (j 1).val < win0_3.xsize (grid0.coords t) (1 : Fin 3) := (j 1).isLt
  have hp : (j 1).val < 256 := by rw [x31] at hj1; split at hj1 <;> omega
  have hp2 : (j 1).val < win0_2.xsize (grid0.coords t) (1 : Fin 3) := by rw [x21, ← x31]; exact hj1
  rw [x30] at hj0
  show outTile (grid0.coords t) _ _ _ (win0_3.xinj (grid0.coords t) j) = Cert.Spec.cols r a1 a2 ((win0_3.blk t).view.emb j)
  refine (outTile_apply (grid0.coords t) _ _ _ _ ⟨(j 1).val, hp⟩ (j 2).val rfl rfl).trans ?_
  have hK2 : (((win0_3.blk t).view.emb j) 2).val = (j 2).val := by
    show win0_3.index t (2 : Fin 3) * 4098 + 1 * (j 2).val = (j 2).val; rw [e32]; omega
  refine (tileAt_congr _ _ _ _ rfl hK2.symm).trans ?_
  refine tileAt_eq_cols (grid0.coords t) _ _ a1 a2 _ r ⟨(j 1).val, hp⟩ _ ?_ (read_coef0 t a1) (read_coef1 t a2) ?_
  · show win0_3.index t (1 : Fin 3) * 256 + 1 * (j 1).val = (grid0.coords t 1).val * 256 + (j 1).val
    rw [e31]; omega
  · intro c
    refine fill_at t r d ⟨(j 1).val, hp⟩ c hp2 _ ?_ ?_ rfl
    · show win0_3.index t (0 : Fin 3) * 1 + 1 * (j 0).val = (grid0.coords t 0).val
      rw [e30]; omega
    · show win0_3.index t (1 : Fin 3) * 256 + 1 * (j 1).val = (grid0.coords t 1).val * 256 + (j 1).val
      rw [e31]; omega

end Cert.KernelIdeal.Hand

end
-- ==== Proof.KIFrame.lean ====
/-
  The padded program runs, faults nowhere and leaves its arguments alone; and its result array ends
  holding the column padding of the row-padded array.

  The proof data of the one region: every array as the region finds it; after the body at a grid
  point the coefficient tables' blocks and the input tile's rows as fetched, and the output tile at
  the block of `Cert.Spec.cols` there — on the rows inside the array.  The last row tile overhangs
  the 4098 rows: below the array's end its staging blocks hold words nothing names, and the body's
  obligation is stated on the rows inside the array only.
-/
import proofs.«166649_j66305705115790_1_alg».proof.Proof.KIBody
import proofs.«166649_j66305705115790_1_alg».proof.Proof.KIEntry
import proofs.«166649_j66305705115790_1_alg».proof.Proof.Spec
import proofs.«166649_j66305705115790_1_alg».proof.Proof.KICover
import proofs.«166649_j66305705115790_1_alg».proof.Proof.KIBlocks
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The result the region computes: the column padding of the row-padded array it finds. -/
def result (c : Dev nD) : Vec F S4x4098x4098 .f32 :=
  Cert.Spec.cols (V m c main_v18) (V m c main_arg1) (V m c main_arg2)

/-- Its block at point `t`: the part of the output tile inside the array. -/
def outBlk (c : Dev nD) (t : Fin cfg0.N) : ((cfg0.win 3).xblock (cfg0.grid.coords t)).Idx → Elt F (cfg0.win 3).elt :=
  ((cfg0.win 3).blk t).view.read (Elt F) (result m c)

/-- The proof data of the one pipeline on core `c`. Past the array's end the two clipped windows'
    blocks are filled out with zero, a word nothing reads. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (cfg0.win 2).fill (cfg0.grid.coords t) (fun _ => Cert.Spec.zero) (iblk m c 2 t)
    | ⟨3, _⟩ => (cfg0.win 3).fill (cfg0.grid.coords t) (fun _ => Cert.Spec.zero) (outBlk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = (cfg0.win 2).fill (cfg0.grid.coords t) (fun _ => Cert.Spec.zero) (iblk m c 2 t) := by dsimp only [dats]
theorem after0_3 (c : Dev nD) (t : Fin cfg0.N) :
    (dats m 0 c).after 3 t = (cfg0.win 3).fill (cfg0.grid.coords t) (fun _ => Cert.Spec.zero) (outBlk m c t) := by dsimp only [dats]

/-- The coefficient tables' staging blocks hold the tables at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
/-- The input tile is fetched at every point: its rows inside the array, anything below them. -/
theorem before0_2 (c : Dev nD) (t : Fin cfg0.N) (d) :
    (dats m 0 c).before 2 t d = (cfg0.win 2).fill (cfg0.grid.coords t) d (iblk m c 2 t) := by
  rw [(dats m 0 c).before_fetched 2 t (fetch0_2 t) d]
  unfold Dat.fetched Dat.blockOf iblk; rw [A_eq]
/-- The output tile is written back at every point: the body finds its buffer at anything. -/
theorem before0_3 (c : Dev nD) (t : Fin cfg0.N) (d) : (dats m 0 c).before 3 t d = d :=
  (dats m 0 c).before_out_reset 3 rfl t
    (by by_cases h : t.val = 0
        · exact .inl h
        · exact .inr ⟨h, flush0_3 _⟩) d

/-! ## The body's obligation -/

/-- At every point the body runs from the buffers as the pipeline hands them to what the proof data
    says it leaves: the tables and the input tile as found; the output tile, on the rows inside the
    array, the block of the column padding there — whatever lies below the array's end in the input
    tile does not reach those rows. -/
theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before0_0 m c t d0, before0_1 m c t d1, before0_2 m c t d2, before0_3 m c t d3]
  iapply (sound_kernel (F := F) c Set.univ (grid0.coords t) _ _ _ _ _ _ _ _ (iblk m c 0 t) (iblk m c 1 t)
    ((cfg0.win 2).fill (cfg0.grid.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · rw [after0_0]; iexact H0
  isplitl [H1]; · rw [after0_1]; iexact H1
  isplitl [H2]
  · iexists d2
    rw [after0_2, Window.cut_fill]; iexact H2
  · iexists (outTile (grid0.coords t) (iblk m c 0 t) (iblk m c 1 t) ((cfg0.win 2).fill (cfg0.grid.coords t) d2 (iblk m c 2 t)))
    rw [after0_3, Window.cut_fill]
    have hcut : win0_3.cut (grid0.coords t)
        (outTile (grid0.coords t) (iblk m c 0 t) (iblk m c 1 t) ((cfg0.win 2).fill (cfg0.grid.coords t) d2 (iblk m c 2 t)))
        = outBlk m c t :=
      cut_outTile t (V m c main_arg1) (V m c main_arg2) (V m c main_v18) d2
    rw [← hcut, Window.fill_cut]; iexact H3

/-! ## The run -/

set_option backward.isDefEq.respectTransparency.types false in
/-- Every weakly fair execution of the program terminates, nothing faulting; every array of the
    region ends at what the write-backs make of it and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The result array after the run: every flushed block is its block of `result`, and the blocks
    cover the array. -/
theorem final_out (c : Dev nD) : (dats m 0 c).arrAt 3 cfg0.N = result m c :=
  (dats m 0 c).arrAt_eq_of_cover 3 (result m c)
    (fun t _ => by
      show (cfg0.win 3).cut (cfg0.grid.coords t) ((dats m 0 c).after 3 t) = _
      rw [after0_3, Window.cut_fill]; rfl)
    (cover_out c)

/-- The run with the result array named and the three arguments unchanged. -/
theorem run_value : θ_run defs (onTc (τ := τ) (main (F := F))) ⟨m, fun _ => 0, ρ⟩ (fun r => ∀ c : Dev nD,
      r.2.mem ((c.tc : Thread nD τ).loc main_v19) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 3).trans (final_out m c),
     ((h c).2 main_arg0 (Pipeline.mem_restRefs_of main_arg0 rfl (by decide))).trans (V_main_arg0 m c),
     ((h c).1 0).trans (((dats m 0 c).arrAt_in 0 rfl _).trans ((A_eq m c 0).trans (V_main_arg1 m c))),
     ((h c).1 1).trans (((dats m 0 c).arrAt_in 1 rfl _).trans ((A_eq m c 1).trans (V_main_arg2 m c)))⟩) (run_main m ρ)

/-- The frame: the program runs and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_value m ρ)

end Cert.KernelIdeal.Hand

end
-- ==== Proof.KIRows.lean ====
/-
  The row-padded array.  Before its one region the program builds, on the host, the field with one ghost row
  above and one below: `top = cst[0,0] + fct[0,0] · arr[:, 0:1, :]`, `bot = cst[0,1] + fct[0,1] · arr[:, 4095:4096, :]`,
  and the concatenation of `top`, `arr`, `bot` along axis 1.  Each coefficient is read as a 1 × 1 slice of its
  2 × 2 table, reshaped to rank 0 and broadcast over a one-row array; the product and the sum are pointwise.

  This module reads that chain of operations at an index: a broadcast rank-0 value is the table's entry everywhere, a
  one-row slice is the field's row, and the three-piece concatenation takes row 0 from the first piece, row 4097 from
  the last and row `ρ` between them from the field's row `ρ − 1`.  The result is that the array the region pads the
  columns of is the specification's `rows` of the three argument arrays, at every float instance (every operation
  involved is a re-indexing or a pointwise product or sum).
-/
import proofs.«166649_j66305705115790_1_alg».proof.Proof.KIEntry
import proofs.«166649_j66305705115790_1_alg».proof.Proof.Spec
import Idealize.ShloMosaic.Lib.Pipeline.Value
import Idealize.ShloMosaic.Lib.ValueIdx
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.ValueIdx

variable {F : FTy → Type} [FloatOps F]

variable (m : (ℓ : Loc nD τ sig) → Buf (Elt F) ℓ)

/-! ## The host operations' values -/

/-- A ghost row as the host operations spell it: the coefficients `cst[0, o]` and `fct[0, o]` (a 1 × 1 slice of
    each table, reshaped to rank 0 and broadcast over the row) and row `r` of the field, combined as
    `cst[0, o] + fct[0, o] · arr[·, r, ·]`. -/
def ghostRow (o r : Nat) (hs : S2x2.Slices ![0, o] S1x1) (hsl : S4x4096x4096.Slices ![0, r, 0] S4x1x4096)
    (arr : S4x4096x4096.Idx → F .f32) (cst fct : S2x2.Idx → F .f32) : S4x1x4096.Idx → F .f32 :=
  addf (broadcastInDim S4x1x4096 ![] bcast_S_S4x1x4096 (shapeCast S_ (extractStridedSlice S1x1 ![0, o] cst hs) shapeCasts_S1x1_S_))
    (mulf (broadcastInDim S4x1x4096 ![] bcast_S_S4x1x4096 (shapeCast S_ (extractStridedSlice S1x1 ![0, o] fct hs) shapeCasts_S1x1_S_))
      (extractStridedSlice S4x1x4096 ![0, r, 0] arr hsl))

/-- The upper ghost row: operations 0 … 8. -/
theorem V_main_v8 (c : Dev nD) :
    (V m c main_v8 : S4x1x4096.Idx → F .f32)
      = ghostRow 0 0 slices_S2x2_S1x1_0_0 slices_S4x4096x4096_S4x1x4096_0_0_0
          (m ((c : Thread nD τ).loc main_arg0)) (m ((c : Thread nD τ).loc main_arg1)) (m ((c : Thread nD τ).loc main_arg2)) := by
  dsimp only [V, Gen.hostOps0]; after_results; rfl

/-- The lower ghost row: operations 9 … 17. -/
theorem V_main_v17 (c : Dev nD) :
    (V m c main_v17 : S4x1x4096.Idx → F .f32)
      = ghostRow 1 4095 slices_S2x2_S1x1_0_1 slices_S4x4096x4096_S4x1x4096_0_4095_0
          (m ((c : Thread nD τ).loc main_arg0)) (m ((c : Thread nD τ).loc main_arg1)) (m ((c : Thread nD τ).loc main_arg2)) := by
  dsimp only [V, Gen.hostOps0]; after_results; rfl

/-- The row-padded array: the last operation concatenates the upper ghost row, the field and the lower ghost row
    along axis 1. -/
theorem V_main_v18_concat (c : Dev nD) :
    (V m c main_v18 : S4x4098x4096.Idx → F .f32)
      = concatenate S4x4098x4096 1
          [⟨S4x1x4096, V m c main_v8⟩, ⟨S4x4096x4096, V m c main_arg0⟩, ⟨S4x1x4096, V m c main_v17⟩]
          concatenates_S4x1x4096_S4x4096x4096_S4x1x4096_S4x4098x4096_d1 := by
  dsimp only [V, Gen.hostOps0]
  simp only [StableHlo.after_cons, StableHlo.after_nil]
  rw [StableHlo.nary_result]
  rw [StableHlo.nary_result_ne (r := main_v8)]; rotate_left; decide
  rw [StableHlo.nary_result_ne (r := main_arg0)]; rotate_left; decide
  rw [StableHlo.nary_result_ne (r := main_v17)]; rotate_left; decide
  rfl

/-! ## The operations read at an index -/

section AtIndex
variable {α : Type}

/-- A coefficient as the program reads it — the 1 × 1 slice at `[0, o]` of a 2 × 2 table, reshaped to rank 0 and
    broadcast — is the table's entry `[0, o]` everywhere. -/
theorem coef_apply (tbl : S2x2.Idx → α) (o : Nat) (ho : o < 2) (hs : S2x2.Slices ![0, o] S1x1) (hc : S1x1.ShapeCasts S_)
    (hb : S_.BroadcastsInDim S4x1x4096 ![]) (j : S4x1x4096.Idx) :
    broadcastInDim S4x1x4096 ![] hb (shapeCast S_ (extractStridedSlice S1x1 ![0, o] tbl hs) hc) j
      = tbl (ix2 (0 : Fin 2) (⟨o, ho⟩ : Fin 2)) := by
  refine (broadcastInDim_apply _ hb _ j ix0 (fun a => a.elim0)).trans ?_
  refine (shapeCast_apply _ hc ix0 (ix2 (0 : Fin 1) (0 : Fin 1)) ?_).trans ?_
  · rw [Shape.rowMajor_val_two]
    exact (Shape.rowMajorPi_zero _ _).symm
  · exact extractStridedSlice_apply ![0, o] tbl hs (ix2 (0 : Fin 1) (0 : Fin 1)) (ix2 (0 : Fin 2) (⟨o, ho⟩ : Fin 2))
      (fun a => match a with | ⟨0, _⟩ => rfl | ⟨1, _⟩ => rfl)

/-- Row `r` of the field, cut out as a one-row array. -/
theorem rowSlice_apply (arr : S4x4096x4096.Idx → α) (r : Nat) (hr : r < 4096) (hsl : S4x4096x4096.Slices ![0, r, 0] S4x1x4096)
    (a : Fin 4) (u : Fin 1) (q : Fin 4096) :
    extractStridedSlice S4x1x4096 ![0, r, 0] arr hsl (ix3 a u q) = arr (ix3 a (⟨r, hr⟩ : Fin 4096) q) :=
  extractStridedSlice_apply ![0, r, 0] arr hsl (ix3 a u q) (ix3 a (⟨r, hr⟩ : Fin 4096) q) (fun b => match b with
    | ⟨0, _⟩ => (Nat.zero_add _).symm
    | ⟨1, _⟩ => by
      have hu := u.isLt
      show r = r + u.val
      omega
    | ⟨2, _⟩ => (Nat.zero_add _).symm)

/-- The three-piece concatenation along the rows, read at an index: row 0 is the first piece's one row, row 4097 the
    last piece's, and a row between them is the middle piece's row one less. -/
theorem concat_rows_apply (top bot : S4x1x4096.Idx → α) (mid : S4x4096x4096.Idx → α)
    (h : Shape.Concatenates [S4x1x4096, S4x4096x4096, S4x1x4096] S4x4098x4096 1) (a : Fin 4) (ρ : Fin 4098) (q : Fin 4096) :
    concatenate S4x4098x4096 1 [⟨S4x1x4096, top⟩, ⟨S4x4096x4096, mid⟩, ⟨S4x1x4096, bot⟩] h (ix3 a ρ q)
      = if ρ.val = 0 then top (ix3 a (0 : Fin 1) q)
        else if ρ.val = 4097 then bot (ix3 a (0 : Fin 1) q)
        else mid (ix3 a (⟨(ρ.val - 1) % 4096, Nat.mod_lt _ (by decide)⟩ : Fin 4096) q) := by
  have hρ := ρ.isLt
  by_cases h0 : ρ.val = 0
  · rw [if_pos h0]
    exact concatenate_apply_piece (t := S4x4098x4096) (1 : Fin 3) ([⟨S4x1x4096, top⟩, ⟨S4x4096x4096, mid⟩, ⟨S4x1x4096, bot⟩] : List ((s : Shape) × (s.Idx → α))) h (ix3 a ρ q) 0 (by show 0 < 3; decide) S4x1x4096 top rfl rfl 0 rfl (ix3 a (0 : Fin 1) q)
      (fun b => match b with
        | ⟨0, _⟩ => fun _ => rfl
        | ⟨1, _⟩ => fun hb => absurd (Fin.ext rfl) hb
        | ⟨2, _⟩ => fun _ => rfl)
      (by show 0 + 0 = ρ.val; omega)
  · rw [if_neg h0]
    by_cases h1 : ρ.val = 4097
    · rw [if_pos h1]
      exact concatenate_apply_piece (t := S4x4098x4096) (1 : Fin 3) ([⟨S4x1x4096, top⟩, ⟨S4x4096x4096, mid⟩, ⟨S4x1x4096, bot⟩] : List ((s : Shape) × (s.Idx → α))) h (ix3 a ρ q) 2 (by show 2 < 3; decide) S4x1x4096 bot rfl rfl 4097 rfl (ix3 a (0 : Fin 1) q)
        (fun b => match b with
          | ⟨0, _⟩ => fun _ => rfl
          | ⟨1, _⟩ => fun hb => absurd (Fin.ext rfl) hb
          | ⟨2, _⟩ => fun _ => rfl)
        (by show 4097 + 0 = ρ.val; omega)
    · rw [if_neg h1]
      exact concatenate_apply_piece (t := S4x4098x4096) (1 : Fin 3) ([⟨S4x1x4096, top⟩, ⟨S4x4096x4096, mid⟩, ⟨S4x1x4096, bot⟩] : List ((s : Shape) × (s.Idx → α))) h (ix3 a ρ q) 1 (by show 1 < 3; decide) S4x4096x4096 mid rfl rfl 1 rfl
        (ix3 a (⟨(ρ.val - 1) % 4096, Nat.mod_lt _ (by decide)⟩ : Fin 4096) q)
        (fun b => match b with
          | ⟨0, _⟩ => fun _ => rfl
          | ⟨1, _⟩ => fun hb => absurd (Fin.ext rfl) hb
          | ⟨2, _⟩ => fun _ => rfl)
        (by show 1 + (ρ.val - 1) % 4096 = ρ.val; omega)

end AtIndex

/-- A ghost row read at an index is the affine virtual point of the field's row `r` with the coefficients
    `cst[0, o]`, `fct[0, o]`. -/
theorem ghostRow_apply (o r : Nat) (ho : o < 2) (hr : r < 4096) (hs : S2x2.Slices ![0, o] S1x1)
    (hsl : S4x4096x4096.Slices ![0, r, 0] S4x1x4096) (arr : S4x4096x4096.Idx → F .f32) (cst fct : S2x2.Idx → F .f32)
    (a : Fin 4) (u : Fin 1) (q : Fin 4096) :
    ghostRow o r hs hsl arr cst fct (ix3 a u q)
      = Cert.Spec.ghost (cst (ix2 (0 : Fin 2) (⟨o, ho⟩ : Fin 2))) (fct (ix2 (0 : Fin 2) (⟨o, ho⟩ : Fin 2)))
          (arr (ix3 a (⟨r, hr⟩ : Fin 4096) q)) := by
  unfold ghostRow Cert.Spec.ghost
  exact congrArg₂ FloatOps.addf (coef_apply cst o ho hs _ _ _)
    (congrArg₂ FloatOps.mulf (coef_apply fct o ho hs _ _ _) (rowSlice_apply arr r hr hsl a u q))

/-- The row-padded array of the specification, read at an index given by coordinates. -/
theorem rows_ix3 (arr : Cert.Spec.SArr.Idx → F .f32) (cst fct : Cert.Spec.SCoef.Idx → F .f32) (a : Fin 4) (ρ : Fin 4098) (q : Fin 4096) :
    Cert.Spec.rows arr cst fct (ix3 a ρ q)
      = if ρ.val = 0 then
          Cert.Spec.ghost (cst (ix2 (0 : Fin 2) (0 : Fin 2))) (fct (ix2 (0 : Fin 2) (0 : Fin 2))) (arr (ix3 a (⟨0, by decide⟩ : Fin 4096) q))
        else if ρ.val = 4097 then
          Cert.Spec.ghost (cst (ix2 (0 : Fin 2) (1 : Fin 2))) (fct (ix2 (0 : Fin 2) (1 : Fin 2))) (arr (ix3 a (⟨4095, by decide⟩ : Fin 4096) q))
        else arr (ix3 a (⟨(ρ.val - 1) % 4096, Nat.mod_lt _ (by decide)⟩ : Fin 4096) q) := rfl

/-! ## The row-padded array -/

/-- When the region is entered, the array it pads the columns of is the specification's row-padded field. -/
theorem V_main_v18 (m : (ℓ : Loc nD τ sig) → Buf (Elt F) ℓ) (c : Dev nD) :
    (V m c main_v18 : S4x4098x4096.Idx → F .f32)
      = Cert.Spec.rows (m ((c : Thread nD τ).loc main_arg0)) (m ((c : Thread nD τ).loc main_arg1)) (m ((c : Thread nD τ).loc main_arg2)) := by
  refine (V_main_v18_concat m c).trans ?_
  funext j
  obtain ⟨a, ρ, q, rfl⟩ : ∃ (a : Fin 4) (ρ : Fin 4098) (q : Fin 4096), j = ix3 a ρ q := ⟨j 0, j 1, j 2, eq_ix3 j⟩
  refine (concat_rows_apply _ _ _ _ a ρ q).trans ?_
  rw [rows_ix3]
  by_cases h0 : ρ.val = 0
  · rw [if_pos h0, if_pos h0]
    exact (congrFun (V_main_v8 m c) _).trans (ghostRow_apply 0 0 (by decide) (by decide) _ _ _ _ _ a 0 q)
  · rw [if_neg h0, if_neg h0]
    by_cases h1 : ρ.val = 4097
    · rw [if_pos h1, if_pos h1]
      exact (congrFun (V_main_v17 m c) _).trans (ghostRow_apply 1 4095 (by decide) (by decide) _ _ _ _ _ a 0 q)
    · rw [if_neg h1, if_neg h1]
      exact congrFun (V_main_arg0 m c) _

end Cert.KernelIdeal.Hand

end
-- ==== Proof.LibScatterFold.lean ====
/-
  A general fact about a scatter read at an index.

  The host's scatter is a left fold, over the update indices in row-major order, of single-point overwrites: the update
  with index j replaces the element at its result index ρ j by f (old element) (update j). When every update lands inside
  the operand and ρ is injective, each element of the result meets at most one update, so the fold can be read off
  directly:

      scatter x upd (ρ j) = f (x (ρ j)) (upd j),          scatter x upd i = x i   when no update lands on i.
-/
import Idealize.ShloMosaic.PureOps.ShapeOps

namespace Cert.ScatterFold

open Idealize.ShloMosaic

section fold

variable {ι κ α : Type} [DecidableEq κ] (f : α → α → α) (g : ι → κ) (v : ι → α)

/-- One overwrite: the value at `g n` becomes `f` of the old value there and `v n`; every other value stays. -/
def step (r : κ → α) (n : ι) : κ → α := fun i' => if i' = g n then f (r (g n)) (v n) else r i'

/-- A point none of the overwrites touches keeps its value through the fold. -/
theorem foldl_step_miss (i : κ) :
    ∀ (l : List ι) (x : κ → α), (∀ n ∈ l, g n ≠ i) → l.foldl (step f g v) x i = x i
  | [], _, _ => rfl
  | n :: l, x, h => by
    rw [List.foldl_cons, foldl_step_miss i l _ (fun n' hn' => h n' (List.mem_cons_of_mem _ hn'))]
    exact if_neg (fun e => h n List.mem_cons_self e.symm)

/-- When distinct overwrites touch distinct points and the list has no repeats, the point of overwrite `n` ends at
    `f` of its first value and `v n`: the overwrites before `n` and after it leave that point alone. -/
theorem foldl_step_hit (hg : Function.Injective g) (n : ι) :
    ∀ (l : List ι) (x : κ → α), l.Nodup → n ∈ l → l.foldl (step f g v) x (g n) = f (x (g n)) (v n)
  | [], _, _, h => absurd h List.not_mem_nil
  | a :: l, x, hnd, h => by
    rw [List.foldl_cons]
    have hnd' := List.nodup_cons.mp hnd
    rcases List.mem_cons.mp h with rfl | h'
    · rw [foldl_step_miss f g v (g n) l _ (fun n' hn' e => hnd'.1 (hg e ▸ hn'))]
      exact if_pos rfl
    · rw [foldl_step_hit hg n l _ hnd'.2 h']
      have hne : g n ≠ g a := fun e => hnd'.1 (hg e ▸ h')
      show f (if g n = g a then _ else x (g n)) (v n) = _
      rw [if_neg hne]

end fold

variable {s si u : Shape} {α : Type} {w : Nat}

/-- With every update inside the operand (`ρ` its result index), the scatter is the fold of the overwrites at `ρ`. -/
theorem scatter_eq_foldl (d : ScatterDims s si u) (f : α → α → α) (x : s.Idx → α) (idx : IVec si w) (upd : u.Idx → α)
    (ρ : u.Idx → s.Idx) (hρ : ∀ j, d.resultIdx? j idx = some (ρ j)) :
    Host.scatter d f x idx upd
      = (List.finRange u.numel).foldl (step f (fun n => ρ (u.rowMajor.symm n)) (fun n => upd (u.rowMajor.symm n))) x := by
  unfold Host.scatter
  refine congrArg (fun st => List.foldl st x (List.finRange u.numel)) ?_
  funext r n
  rw [hρ]
  rfl

/-- The scatter at the result index of update `j`, when distinct updates land on distinct elements. -/
theorem scatter_hit (d : ScatterDims s si u) (f : α → α → α) (x : s.Idx → α) (idx : IVec si w) (upd : u.Idx → α)
    (ρ : u.Idx → s.Idx) (hρ : ∀ j, d.resultIdx? j idx = some (ρ j)) (hinj : Function.Injective ρ) (j : u.Idx) :
    Host.scatter d f x idx upd (ρ j) = f (x (ρ j)) (upd j) := by
  rw [scatter_eq_foldl d f x idx upd ρ hρ]
  have h := foldl_step_hit f (fun n => ρ (u.rowMajor.symm n)) (fun n => upd (u.rowMajor.symm n))
    (hinj.comp u.rowMajor.symm.injective) (u.rowMajor j) (List.finRange u.numel) x (List.nodup_finRange _) (List.mem_finRange _)
  simp only [Equiv.symm_apply_apply] at h
  exact h

/-- The scatter at an element no update lands on. -/
theorem scatter_miss (d : ScatterDims s si u) (f : α → α → α) (x : s.Idx → α) (idx : IVec si w) (upd : u.Idx → α)
    (ρ : u.Idx → s.Idx) (hρ : ∀ j, d.resultIdx? j idx = some (ρ j)) (i : s.Idx) (hi : ∀ j, ρ j ≠ i) :
    Host.scatter d f x idx upd i = x i := by
  rw [scatter_eq_foldl d f x idx upd ρ hρ]
  exact foldl_step_miss _ _ _ i _ x (fun n _ => hi _)

end Cert.ScatterFold
-- ==== Proof.ScatterLine.lean ====
/-
  The two line scatters of the padded field, read at an index.

  A scatter with ONE index vector (r, c) and a window of 4 × 4096 updates that are returned as they are writes one line of
  every component: with the window's second axis laid along the columns it writes row r, columns c … c + 4095; laid along
  the rows it writes column c, rows r … r + 4095.  Update (a, b) lands at (a, r, c + b), respectively (a, r + b, c); the
  landing map is injective and stays inside the array, so each cell of the result meets at most one update: a cell of the
  line holds its update, every other cell keeps the operand's value.
-/
import proofs.«166649_j66305705115790_1_alg».proof.Proof.Gen.ReferenceIdeal
import proofs.«166649_j66305705115790_1_alg».proof.Proof.LibScatterFold
import Idealize.ShloMosaic.Lib.ValueIdx

open Idealize.ShloMosaic Idealize.ShloMosaic.ValueIdx Cert.ReferenceIdeal Cert.ReferenceIdeal.Gen

namespace Cert.RefPadded

/-! ## The window along the columns: one row of every component -/

/-- The dimension numbers of a scatter that writes a row: the row axis is the inserted one. -/
abbrev dRow : ScatterDims S4x4098x4098 S2 S4x4096 := scatter_S4x4098x4098_S2_S4x4096_01_1_12_0

theorem siIdx_row (j : S4x4096.Idx) (c : Fin dRow.scatterDimsToOperandDims.length) :
    dRow.siIdx j c = ix1 (⟨c.val, c.isLt⟩ : Fin 2) := by
  funext b; match b with | ⟨0, _⟩ => rfl

theorem start_row0 (j : S4x4096.Idx) (idx : IVec S2 32) : dRow.start j idx ⟨0, by decide⟩ = 0 := rfl
theorem start_row1 (j : S4x4096.Idx) (idx : IVec S2 32) :
    dRow.start j idx ⟨1, by decide⟩ = (idx (ix1 (0 : Fin 2))).toInt :=
  congrArg (fun k => (idx k).toInt) (siIdx_row j ⟨0, by decide⟩)
theorem start_row2 (j : S4x4096.Idx) (idx : IVec S2 32) :
    dRow.start j idx ⟨2, by decide⟩ = (idx (ix1 (1 : Fin 2))).toInt :=
  congrArg (fun k => (idx k).toInt) (siIdx_row j ⟨1, by decide⟩)
theorem window_row0 (j : S4x4096.Idx) : dRow.window j ⟨0, by decide⟩ = (j 0).val := rfl
theorem window_row1 (j : S4x4096.Idx) : dRow.window j ⟨1, by decide⟩ = 0 := rfl
theorem window_row2 (j : S4x4096.Idx) : dRow.window j ⟨2, by decide⟩ = (j 1).val := rfl

/-- Where update `j` of a row scatter lands: component `j 0`, row `r`, column `c + j 1`. -/
def rowIdx (r c : Nat) (hr : r < 4098) (hc : c + 4096 ≤ 4098) (j : S4x4096.Idx) : S4x4098x4098.Idx :=
  ix3 (⟨(j 0).val, (j 0).isLt⟩ : Fin 4) (⟨r, hr⟩ : Fin 4098)
    (⟨c + (j 1).val, by have h1 : (j 1).val < 4096 := (j 1).isLt; omega⟩ : Fin 4098)

theorem resultIdx_row (idx : IVec S2 32) (r c : Nat) (hr : r < 4098) (hc : c + 4096 ≤ 4098)
    (hir : (idx (ix1 (0 : Fin 2))).toInt = r) (hic : (idx (ix1 (1 : Fin 2))).toInt = c) (j : S4x4096.Idx) :
    dRow.resultIdx? j idx = some (rowIdx r c hr hc j) := by
  have h0 : (j 0).val < 4 := (j 0).isLt
  have h1 : (j 1).val < 4096 := (j 1).isLt
  have hin : ∀ a, 0 ≤ dRow.start j idx a + dRow.window j a ∧ dRow.start j idx a + dRow.window j a < S4x4098x4098.size a := by
    intro a
    match a with
    | ⟨0, _⟩ => rw [start_row0, window_row0]; show _ ∧ _ < ((4 : Nat) : Int); omega
    | ⟨1, _⟩ => rw [start_row1, window_row1, hir]; show _ ∧ _ < ((4098 : Nat) : Int); omega
    | ⟨2, _⟩ => rw [start_row2, window_row2, hic]; show _ ∧ _ < ((4098 : Nat) : Int); omega
  unfold ScatterDims.resultIdx?
  rw [dif_pos hin]
  refine congrArg some (funext fun a => ?_)
  match a with
  | ⟨0, _⟩ => apply Fin.ext; show (dRow.start j idx ⟨0, by decide⟩ + dRow.window j ⟨0, by decide⟩).toNat = (j 0).val; rw [start_row0, window_row0]; omega
  | ⟨1, _⟩ => apply Fin.ext; show (dRow.start j idx ⟨1, by decide⟩ + dRow.window j ⟨1, by decide⟩).toNat = r; rw [start_row1, window_row1, hir]; omega
  | ⟨2, _⟩ => apply Fin.ext; show (dRow.start j idx ⟨2, by decide⟩ + dRow.window j ⟨2, by decide⟩).toNat = c + (j 1).val; rw [start_row2, window_row2, hic]; omega

theorem rowIdx_injective (r c : Nat) (hr : r < 4098) (hc : c + 4096 ≤ 4098) : Function.Injective (rowIdx r c hr hc) := by
  intro j j' h
  have e0 : (j 0).val = (j' 0).val := congrArg Fin.val (congrFun h ⟨0, by decide⟩)
  have e2 : c + (j 1).val = c + (j' 1).val := congrArg Fin.val (congrFun h ⟨2, by decide⟩)
  funext a
  match a with
  | ⟨0, _⟩ => exact Fin.ext e0
  | ⟨1, _⟩ => exact Fin.ext (Nat.add_left_cancel e2)

/-- A row scatter (the update returned as it is) read at an index: the cells of row `r`, columns `c … c + 4095`, hold the
    update line; every other cell is kept. -/
theorem scatter_row_apply {α : Type} (x : S4x4098x4098.Idx → α) (idx : IVec S2 32) (upd : S4x4096.Idx → α)
    (r c : Nat) (hr : r < 4098) (hc : c + 4096 ≤ 4098)
    (hir : (idx (ix1 (0 : Fin 2))).toInt = r) (hic : (idx (ix1 (1 : Fin 2))).toInt = c) (i : S4x4098x4098.Idx) :
    Host.scatter dRow (fun _ b => b) x idx upd i
      = if h : (i 1).val = r ∧ c ≤ (i 2).val ∧ (i 2).val < c + 4096 then
          upd (ix2 (⟨(i 0).val, (i 0).isLt⟩ : Fin 4) (⟨(i 2).val - c, by omega⟩ : Fin 4096))
        else x i := by
  by_cases h : (i 1).val = r ∧ c ≤ (i 2).val ∧ (i 2).val < c + 4096
  · rw [dif_pos h]
    have hi : i = rowIdx r c hr hc (ix2 (⟨(i 0).val, (i 0).isLt⟩ : Fin 4) (⟨(i 2).val - c, by omega⟩ : Fin 4096)) := by
      funext a
      match a with
      | ⟨0, _⟩ => rfl
      | ⟨1, _⟩ => exact Fin.ext h.1
      | ⟨2, _⟩ => exact Fin.ext (show (i 2).val = c + ((i 2).val - c) by omega)
    conv_lhs => rw [hi]
    exact Cert.ScatterFold.scatter_hit dRow (fun _ b => b) x idx upd (rowIdx r c hr hc)
      (resultIdx_row idx r c hr hc hir hic) (rowIdx_injective r c hr hc) _
  · rw [dif_neg h]
    refine Cert.ScatterFold.scatter_miss dRow (fun _ b => b) x idx upd (rowIdx r c hr hc)
      (resultIdx_row idx r c hr hc hir hic) i (fun j e => h ?_)
    have h1 : (j 1).val < 4096 := (j 1).isLt
    have e1 : r = (i 1).val := congrArg Fin.val (congrFun e ⟨1, by decide⟩)
    have e2 : c + (j 1).val = (i 2).val := congrArg Fin.val (congrFun e ⟨2, by decide⟩)
    omega

/-! ## The window along the rows: one column of every component -/

/-- The dimension numbers of a scatter that writes a column: the column axis is the inserted one. -/
abbrev dCol : ScatterDims S4x4098x4098 S2 S4x4096 := scatter_S4x4098x4098_S2_S4x4096_01_2_12_0

theorem siIdx_col (j : S4x4096.Idx) (c : Fin dCol.scatterDimsToOperandDims.length) :
    dCol.siIdx j c = ix1 (⟨c.val, c.isLt⟩ : Fin 2) := by
  funext b; match b with | ⟨0, _⟩ => rfl

theorem start_col0 (j : S4x4096.Idx) (idx : IVec S2 32) : dCol.start j idx ⟨0, by decide⟩ = 0 := rfl
theorem start_col1 (j : S4x4096.Idx) (idx : IVec S2 32) :
    dCol.start j idx ⟨1, by decide⟩ = (idx (ix1 (0 : Fin 2))).toInt :=
  congrArg (fun k => (idx k).toInt) (siIdx_col j ⟨0, by decide⟩)
theorem start_col2 (j : S4x4096.Idx) (idx : IVec S2 32) :
    dCol.start j idx ⟨2, by decide⟩ = (idx (ix1 (1 : Fin 2))).toInt :=
  congrArg (fun k => (idx k).toInt) (siIdx_col j ⟨1, by decide⟩)
theorem window_col0 (j : S4x4096.Idx) : dCol.window j ⟨0, by decide⟩ = (j 0).val := rfl
theorem window_col1 (j : S4x4096.Idx) : dCol.window j ⟨1, by decide⟩ = (j 1).val := rfl
theorem window_col2 (j : S4x4096.Idx) : dCol.window j ⟨2, by decide⟩ = 0 := rfl

/-- Where update `j` of a column scatter lands: component `j 0`, row `r + j 1`, column `c`. -/
def colIdx (r c : Nat) (hr : r + 4096 ≤ 4098) (hc : c < 4098) (j : S4x4096.Idx) : S4x4098x4098.Idx :=
  ix3 (⟨(j 0).val, (j 0).isLt⟩ : Fin 4)
    (⟨r + (j 1).val, by have h1 : (j 1).val < 4096 := (j 1).isLt; omega⟩ : Fin 4098) (⟨c, hc⟩ : Fin 4098)

theorem resultIdx_col (idx : IVec S2 32) (r c : Nat) (hr : r + 4096 ≤ 4098) (hc : c < 4098)
    (hir : (idx (ix1 (0 : Fin 2))).toInt = r) (hic : (idx (ix1 (1 : Fin 2))).toInt = c) (j : S4x4096.Idx) :
    dCol.resultIdx? j idx = some (colIdx r c hr hc j) := by
  have h0 : (j 0).val < 4 := (j 0).isLt
  have h1 : (j 1).val < 4096 := (j 1).isLt
  have hin : ∀ a, 0 ≤ dCol.start j idx a + dCol.window j a ∧ dCol.start j idx a + dCol.window j a < S4x4098x4098.size a := by
    intro a
    match a with
    | ⟨0, _⟩ => rw [start_col0, window_col0]; show _ ∧ _ < ((4 : Nat) : Int); omega
    | ⟨1, _⟩ => rw [start_col1, window_col1, hir]; show _ ∧ _ < ((4098 : Nat) : Int); omega
    | ⟨2, _⟩ => rw [start_col2, window_col2, hic]; show _ ∧ _ < ((4098 : Nat) : Int); omega
  unfold ScatterDims.resultIdx?
  rw [dif_pos hin]
  refine congrArg some (funext fun a => ?_)
  match a with
  | ⟨0, _⟩ => apply Fin.ext; show (dCol.start j idx ⟨0, by decide⟩ + dCol.window j ⟨0, by decide⟩).toNat = (j 0).val; rw [start_col0, window_col0]; omega
  | ⟨1, _⟩ => apply Fin.ext; show (dCol.start j idx ⟨1, by decide⟩ + dCol.window j ⟨1, by decide⟩).toNat = r + (j 1).val; rw [start_col1, window_col1, hir]; omega
  | ⟨2, _⟩ => apply Fin.ext; show (dCol.start j idx ⟨2, by decide⟩ + dCol.window j ⟨2, by decide⟩).toNat = c; rw [start_col2, window_col2, hic]; omega

theorem colIdx_injective (r c : Nat) (hr : r + 4096 ≤ 4098) (hc : c < 4098) : Function.Injective (colIdx r c hr hc) := by
  intro j j' h
  have e0 : (j 0).val = (j' 0).val := congrArg Fin.val (congrFun h ⟨0, by decide⟩)
  have e1 : r + (j 1).val = r + (j' 1).val := congrArg Fin.val (congrFun h ⟨1, by decide⟩)
  funext a
  match a with
  | ⟨0, _⟩ => exact Fin.ext e0
  | ⟨1, _⟩ => exact Fin.ext (Nat.add_left_cancel e1)

/-- A column scatter (the update returned as it is) read at an index: the cells of column `c`, rows `r … r + 4095`, hold
    the update line; every other cell is kept. -/
theorem scatter_col_apply {α : Type} (x : S4x4098x4098.Idx → α) (idx : IVec S2 32) (upd : S4x4096.Idx → α)
    (r c : Nat) (hr : r + 4096 ≤ 4098) (hc : c < 4098)
    (hir : (idx (ix1 (0 : Fin 2))).toInt = r) (hic : (idx (ix1 (1 : Fin 2))).toInt = c) (i : S4x4098x4098.Idx) :
    Host.scatter dCol (fun _ b => b) x idx upd i
      = if h : (i 2).val = c ∧ r ≤ (i 1).val ∧ (i 1).val < r + 4096 then
          upd (ix2 (⟨(i 0).val, (i 0).isLt⟩ : Fin 4) (⟨(i 1).val - r, by omega⟩ : Fin 4096))
        else x i := by
  by_cases h : (i 2).val = c ∧ r ≤ (i 1).val ∧ (i 1).val < r + 4096
  · rw [dif_pos h]
    have hi : i = colIdx r c hr hc (ix2 (⟨(i 0).val, (i 0).isLt⟩ : Fin 4) (⟨(i 1).val - r, by omega⟩ : Fin 4096)) := by
      funext a
      match a with
      | ⟨0, _⟩ => rfl
      | ⟨1, _⟩ => exact Fin.ext (show (i 1).val = r + ((i 1).val - r) by omega)
      | ⟨2, _⟩ => exact Fin.ext h.1
    conv_lhs => rw [hi]
    exact Cert.ScatterFold.scatter_hit dCol (fun _ b => b) x idx upd (colIdx r c hr hc)
      (resultIdx_col idx r c hr hc hir hic) (colIdx_injective r c hr hc) _
  · rw [dif_neg h]
    refine Cert.ScatterFold.scatter_miss dCol (fun _ b => b) x idx upd (colIdx r c hr hc)
      (resultIdx_col idx r c hr hc hir hic) i (fun j e => h ?_)
    have h1 : (j 1).val < 4096 := (j 1).isLt
    have e1 : r + (j 1).val = (i 1).val := congrArg Fin.val (congrFun e ⟨1, by decide⟩)
    have e2 : c = (i 2).val := congrArg Fin.val (congrFun e ⟨2, by decide⟩)
    omega

end Cert.RefPadded
-- ==== Proof.RefStages.lean ====
/-
  The stages of the reference, read at an index.

  The reference pads the field with zeros and then overwrites four lines of every component, rows first:
  row 4097, row 0 (columns 1 … 4096 of each), then column 4097, column 0 (rows 1 … 4096 of each).  Each line holds the
  affine virtual points c + f · x of the adjacent boundary line of the field, with c and f one entry of the two
  coefficient tables.  Here each stage is stated at an index: the coefficients (a 1 × 1 slice reshaped to a scalar and
  spread over the line), the four lines, the zero padding inside and on the frame, and the four overwrites.
-/
import proofs.«166649_j66305705115790_1_alg».proof.Proof.Gen.ReferenceIdeal.Read
import proofs.«166649_j66305705115790_1_alg».proof.Proof.Spec
import proofs.«166649_j66305705115790_1_alg».proof.Proof.ScatterLine
import Idealize.ShloMosaic.Lib.KernelVsHost
import Idealize.ShloMosaic.Lib.ValueIdx

noncomputable section

open Idealize.ShloMosaic Idealize.ShloMosaic.ValueIdx Cert.ReferenceIdeal Cert.ReferenceIdeal.Gen Cert.ReferenceIdeal.Read

namespace Cert.RefPadded

variable {F : FTy → Type} [FloatOps F]

/-! ## The coefficients: a 1 × 1 slice of a table reshaped to a scalar -/

theorem scalar_of_one {α : Type} (y : S1x1.Idx → α) (i : S_.Idx) :
    shapeCast S_ y shapeCasts_S1x1_S_ i = y (ix2 (0 : Fin 1) (0 : Fin 1)) := by
  refine shapeCast_apply y shapeCasts_S1x1_S_ i _ ?_
  have a : (S1x1.rowMajor (ix2 (0 : Fin 1) (0 : Fin 1))).val < 1 := (S1x1.rowMajor _).isLt
  have b : (S_.rowMajor i).val < 1 := (S_.rowMajor i).isLt
  omega

theorem v2_eq (x1 : (⟨S2x2, .f32⟩ : BufTy).Contents (Elt F)) (i : S_.Idx) :
    val_main_v2 (F := F) x1 i = x1 (ix2 (0 : Fin 2) (1 : Fin 2)) := by
  unfold val_main_v2
  refine (scalar_of_one _ i).trans ((val_main_v1_apply x1 _).trans (congrArg x1 (funext fun a => ?_)))
  match a with | ⟨0, _⟩ => rfl | ⟨1, _⟩ => rfl
theorem v4_eq (x2 : (⟨S2x2, .f32⟩ : BufTy).Contents (Elt F)) (i : S_.Idx) :
    val_main_v4 (F := F) x2 i = x2 (ix2 (0 : Fin 2) (1 : Fin 2)) := by
  unfold val_main_v4
  refine (scalar_of_one _ i).trans ((val_main_v3_apply x2 _).trans (congrArg x2 (funext fun a => ?_)))
  match a with | ⟨0, _⟩ => rfl | ⟨1, _⟩ => rfl
theorem v16_eq (x1 : (⟨S2x2, .f32⟩ : BufTy).Contents (Elt F)) (i : S_.Idx) :
    val_main_v16 (F := F) x1 i = x1 (ix2 (0 : Fin 2) (0 : Fin 2)) := by
  unfold val_main_v16
  refine (scalar_of_one _ i).trans ((val_main_v15_apply x1 _).trans (congrArg x1 (funext fun a => ?_)))
  match a with | ⟨0, _⟩ => rfl | ⟨1, _⟩ => rfl
theorem v18_eq (x2 : (⟨S2x2, .f32⟩ : BufTy).Contents (Elt F)) (i : S_.Idx) :
    val_main_v18 (F := F) x2 i = x2 (ix2 (0 : Fin 2) (0 : Fin 2)) := by
  unfold val_main_v18
  refine (scalar_of_one _ i).trans ((val_main_v17_apply x2 _).trans (congrArg x2 (funext fun a => ?_)))
  match a with | ⟨0, _⟩ => rfl | ⟨1, _⟩ => rfl
theorem v30_eq (x1 : (⟨S2x2, .f32⟩ : BufTy).Contents (Elt F)) (i : S_.Idx) :
    val_main_v30 (F := F) x1 i = x1 (ix2 (1 : Fin 2) (1 : Fin 2)) := by
  unfold val_main_v30
  refine (scalar_of_one _ i).trans ((val_main_v29_apply x1 _).trans (congrArg x1 (funext fun a => ?_)))
  match a with | ⟨0, _⟩ => rfl | ⟨1, _⟩ => rfl
theorem v32_eq (x2 : (⟨S2x2, .f32⟩ : BufTy).Contents (Elt F)) (i : S_.Idx) :
    val_main_v32 (F := F) x2 i = x2 (ix2 (1 : Fin 2) (1 : Fin 2)) := by
  unfold val_main_v32
  refine (scalar_of_one _ i).trans ((val_main_v31_apply x2 _).trans (congrArg x2 (funext fun a => ?_)))
  match a with | ⟨0, _⟩ => rfl | ⟨1, _⟩ => rfl
theorem v44_eq (x1 : (⟨S2x2, .f32⟩ : BufTy).Contents (Elt F)) (i : S_.Idx) :
    val_main_v44 (F := F) x1 i = x1 (ix2 (1 : Fin 2) (0 : Fin 2)) := by
  unfold val_main_v44
  refine (scalar_of_one _ i).trans ((val_main_v43_apply x1 _).trans (congrArg x1 (funext fun a => ?_)))
  match a with | ⟨0, _⟩ => rfl | ⟨1, _⟩ => rfl
theorem v46_eq (x2 : (⟨S2x2, .f32⟩ : BufTy).Contents (Elt F)) (i : S_.Idx) :
    val_main_v46 (F := F) x2 i = x2 (ix2 (1 : Fin 2) (0 : Fin 2)) := by
  unfold val_main_v46
  refine (scalar_of_one _ i).trans ((val_main_v45_apply x2 _).trans (congrArg x2 (funext fun a => ?_)))
  match a with | ⟨0, _⟩ => rfl | ⟨1, _⟩ => rfl

/-! ## The four update lines: the affine virtual points of a boundary line -/

/-- The line written into row 4097: the virtual points of the last valid row. -/
theorem v10_eq (x0 : (⟨S4x4096x4096, .f32⟩ : BufTy).Contents (Elt F)) (x1 x2 : (⟨S2x2, .f32⟩ : BufTy).Contents (Elt F))
    (a : Fin 4) (b : Fin 4096) :
    val_main_v10 (F := F) x0 x1 x2 (ix2 a b)
      = Cert.Spec.ghost (x1 (ix2 (0 : Fin 2) (1 : Fin 2))) (x2 (ix2 (0 : Fin 2) (1 : Fin 2)))
          (x0 (ix3 a (⟨4095, by decide⟩ : Fin 4096) b)) := by
  rw [val_main_v10_apply, val_main_v9_apply, val_main_v8_apply, val_main_v7_apply, val_main_v6_apply, val_main_v5_apply,
    v2_eq, v4_eq]
  unfold Cert.Spec.ghost
  refine congrArg (fun t => FloatOps.addf _ (FloatOps.mulf _ (x0 t))) (funext fun d => ?_)
  have ha : a.val < 4 := a.isLt
  have hb : b.val < 4096 := b.isLt
  match d with
  | ⟨0, _⟩ => exact Fin.ext (show (a.val * 4096 + b.val) / 4096 = a.val by omega)
  | ⟨1, _⟩ => rfl
  | ⟨2, _⟩ => exact Fin.ext (show (a.val * 4096 + b.val) % 4096 = b.val by omega)

/-- The line written into row 0: the virtual points of the first valid row. -/
theorem v24_eq (x0 : (⟨S4x4096x4096, .f32⟩ : BufTy).Contents (Elt F)) (x1 x2 : (⟨S2x2, .f32⟩ : BufTy).Contents (Elt F))
    (a : Fin 4) (b : Fin 4096) :
    val_main_v24 (F := F) x0 x1 x2 (ix2 a b)
      = Cert.Spec.ghost (x1 (ix2 (0 : Fin 2) (0 : Fin 2))) (x2 (ix2 (0 : Fin 2) (0 : Fin 2)))
          (x0 (ix3 a (⟨0, by decide⟩ : Fin 4096) b)) := by
  rw [val_main_v24_apply, val_main_v23_apply, val_main_v22_apply, val_main_v21_apply, val_main_v20_apply, val_main_v19_apply,
    v16_eq, v18_eq]
  unfold Cert.Spec.ghost
  refine congrArg (fun t => FloatOps.addf _ (FloatOps.mulf _ (x0 t))) (funext fun d => ?_)
  have ha : a.val < 4 := a.isLt
  have hb : b.val < 4096 := b.isLt
  match d with
  | ⟨0, _⟩ => exact Fin.ext (show (a.val * 4096 + b.val) / 4096 = a.val by omega)
  | ⟨1, _⟩ => rfl
  | ⟨2, _⟩ => exact Fin.ext (show (a.val * 4096 + b.val) % 4096 = b.val by omega)

/-- The line written into column 4097: the virtual points of the last valid column. -/
theorem v38_eq (x0 : (⟨S4x4096x4096, .f32⟩ : BufTy).Contents (Elt F)) (x1 x2 : (⟨S2x2, .f32⟩ : BufTy).Contents (Elt F))
    (a : Fin 4) (b : Fin 4096) :
    val_main_v38 (F := F) x0 x1 x2 (ix2 a b)
      = Cert.Spec.ghost (x1 (ix2 (1 : Fin 2) (1 : Fin 2))) (x2 (ix2 (1 : Fin 2) (1 : Fin 2)))
          (x0 (ix3 a b (⟨4095, by decide⟩ : Fin 4096))) := by
  rw [val_main_v38_apply, val_main_v37_apply, val_main_v36_apply, val_main_v35_apply, val_main_v34_apply, val_main_v33_apply,
    v30_eq, v32_eq]
  unfold Cert.Spec.ghost
  refine congrArg (fun t => FloatOps.addf _ (FloatOps.mulf _ (x0 t))) (funext fun d => ?_)
  have ha : a.val < 4 := a.isLt
  have hb : b.val < 4096 := b.isLt
  match d with
  | ⟨0, _⟩ => exact Fin.ext (show (a.val * 4096 + b.val) / 4096 = a.val by omega)
  | ⟨1, _⟩ => exact Fin.ext (show (a.val * 4096 + b.val) / 1 % 4096 = b.val by omega)
  | ⟨2, _⟩ => rfl

/-- The line written into column 0: the virtual points of the first valid column. -/
theorem v52_eq (x0 : (⟨S4x4096x4096, .f32⟩ : BufTy).Contents (Elt F)) (x1 x2 : (⟨S2x2, .f32⟩ : BufTy).Contents (Elt F))
    (a : Fin 4) (b : Fin 4096) :
    val_main_v52 (F := F) x0 x1 x2 (ix2 a b)
      = Cert.Spec.ghost (x1 (ix2 (1 : Fin 2) (0 : Fin 2))) (x2 (ix2 (1 : Fin 2) (0 : Fin 2)))
          (x0 (ix3 a b (⟨0, by decide⟩ : Fin 4096))) := by
  rw [val_main_v52_apply, val_main_v51_apply, val_main_v50_apply, val_main_v49_apply, val_main_v48_apply, val_main_v47_apply,
    v44_eq, v46_eq]
  unfold Cert.Spec.ghost
  refine congrArg (fun t => FloatOps.addf _ (FloatOps.mulf _ (x0 t))) (funext fun d => ?_)
  have ha : a.val < 4 := a.isLt
  have hb : b.val < 4096 := b.isLt
  match d with
  | ⟨0, _⟩ => exact Fin.ext (show (a.val * 4096 + b.val) / 4096 = a.val by omega)
  | ⟨1, _⟩ => exact Fin.ext (show (a.val * 4096 + b.val) / 1 % 4096 = b.val by omega)
  | ⟨2, _⟩ => rfl

/-! ## The zero padding -/

/-- Inside the frame the padded array is the field. -/
theorem v0_inside (x0 : (⟨S4x4096x4096, .f32⟩ : BufTy).Contents (Elt F)) (j : S4x4098x4098.Idx)
    (h1 : 1 ≤ (j 1).val ∧ (j 1).val ≤ 4096) (h2 : 1 ≤ (j 2).val ∧ (j 2).val ≤ 4096) :
    val_main_v0 (F := F) x0 j
      = x0 (ix3 (⟨(j 0).val, (j 0).isLt⟩ : Fin 4) (⟨(j 1).val - 1, by omega⟩ : Fin 4096) (⟨(j 2).val - 1, by omega⟩ : Fin 4096)) := by
  unfold val_main_v0
  refine pad_apply_of_inside _ _ _ x0 _ pads_S4x4096x4096_S4x4098x4098_000_110_110 h_S_ j _ (fun a => ?_)
  match a with
  | ⟨0, _⟩ => show (j 0).val = 0 + (j 0).val * (0 + 1); omega
  | ⟨1, _⟩ => show (j 1).val = 1 + ((j 1).val - 1) * (0 + 1); omega
  | ⟨2, _⟩ => show (j 2).val = 1 + ((j 2).val - 1) * (0 + 1); omega

/-- On the frame the padded array is the padding value, the integer zero converted. -/
theorem v0_frame (x0 : (⟨S4x4096x4096, .f32⟩ : BufTy).Contents (Elt F)) (j : S4x4098x4098.Idx)
    (h : ((j 1).val = 0 ∨ (j 1).val = 4097) ∨ ((j 2).val = 0 ∨ (j 2).val = 4097)) :
    val_main_v0 (F := F) x0 j = FloatOps.sitofp .f32 (0#32 : BitVec 32) := by
  unfold val_main_v0
  rcases h with h | h
  · refine (pad_apply_of_not_inside _ _ _ x0 _ pads_S4x4096x4096_S4x4098x4098_000_110_110 h_S_ j ⟨1, by decide⟩ ?_).trans rfl
    intro hin
    have p : 1 ≤ (j 1).val := hin.1
    have q : ((j 1).val - 1) / 1 < 4096 := hin.2.2
    omega
  · refine (pad_apply_of_not_inside _ _ _ x0 _ pads_S4x4096x4096_S4x4098x4098_000_110_110 h_S_ j ⟨2, by decide⟩ ?_).trans rfl
    intro hin
    have p : 1 ≤ (j 2).val := hin.1
    have q : ((j 2).val - 1) / 1 < 4096 := hin.2.2
    omega

/-! ## The four scatters, each read at an index -/

theorem v14_apply (x0 : (⟨S4x4096x4096, .f32⟩ : BufTy).Contents (Elt F)) (x1 x2 : (⟨S2x2, .f32⟩ : BufTy).Contents (Elt F))
    (j : S4x4098x4098.Idx) :
    val_main_v14 (F := F) x0 x1 x2 j
      = if h : (j 1).val = 4097 ∧ 1 ≤ (j 2).val ∧ (j 2).val < 1 + 4096 then
          val_main_v10 (F := F) x0 x1 x2 (ix2 (⟨(j 0).val, (j 0).isLt⟩ : Fin 4) (⟨(j 2).val - 1, by omega⟩ : Fin 4096))
        else val_main_v0 (F := F) x0 j :=
  scatter_row_apply (val_main_v0 (F := F) x0) (val_main_v13 (F := F)) (val_main_v10 (F := F) x0 x1 x2) 4097 1 (by decide) (by decide)
    rfl rfl j

theorem v28_apply (x0 : (⟨S4x4096x4096, .f32⟩ : BufTy).Contents (Elt F)) (x1 x2 : (⟨S2x2, .f32⟩ : BufTy).Contents (Elt F))
    (j : S4x4098x4098.Idx) :
    val_main_v28 (F := F) x0 x1 x2 j
      = if h : (j 1).val = 0 ∧ 1 ≤ (j 2).val ∧ (j 2).val < 1 + 4096 then
          val_main_v24 (F := F) x0 x1 x2 (ix2 (⟨(j 0).val, (j 0).isLt⟩ : Fin 4) (⟨(j 2).val - 1, by omega⟩ : Fin 4096))
        else val_main_v14 (F := F) x0 x1 x2 j :=
  scatter_row_apply (val_main_v14 (F := F) x0 x1 x2) (val_main_v27 (F := F)) (val_main_v24 (F := F) x0 x1 x2) 0 1 (by decide) (by decide)
    rfl rfl j

theorem v42_apply (x0 : (⟨S4x4096x4096, .f32⟩ : BufTy).Contents (Elt F)) (x1 x2 : (⟨S2x2, .f32⟩ : BufTy).Contents (Elt F))
    (j : S4x4098x4098.Idx) :
    val_main_v42 (F := F) x0 x1 x2 j
      = if h : (j 2).val = 4097 ∧ 1 ≤ (j 1).val ∧ (j 1).val < 1 + 4096 then
          val_main_v38 (F := F) x0 x1 x2 (ix2 (⟨(j 0).val, (j 0).isLt⟩ : Fin 4) (⟨(j 1).val - 1, by omega⟩ : Fin 4096))
        else val_main_v28 (F := F) x0 x1 x2 j :=
  scatter_col_apply (val_main_v28 (F := F) x0 x1 x2) (val_main_v41 (F := F)) (val_main_v38 (F := F) x0 x1 x2) 1 4097 (by decide) (by decide)
    rfl rfl j

theorem v56_apply (x0 : (⟨S4x4096x4096, .f32⟩ : BufTy).Contents (Elt F)) (x1 x2 : (⟨S2x2, .f32⟩ : BufTy).Contents (Elt F))
    (j : S4x4098x4098.Idx) :
    val_main_v56 (F := F) x0 x1 x2 j
      = if h : (j 2).val = 0 ∧ 1 ≤ (j 1).val ∧ (j 1).val < 1 + 4096 then
          val_main_v52 (F := F) x0 x1 x2 (ix2 (⟨(j 0).val, (j 0).isLt⟩ : Fin 4) (⟨(j 1).val - 1, by omega⟩ : Fin 4096))
        else val_main_v42 (F := F) x0 x1 x2 j :=
  scatter_col_apply (val_main_v42 (F := F) x0 x1 x2) (val_main_v55 (F := F)) (val_main_v52 (F := F) x0 x1 x2) 1 0 (by decide) (by decide)
    rfl rfl j

end Cert.RefPadded

end
-- ==== Proof.RefPadded.lean ====
/-
  The reference computes the padded field.

  Cell by cell: the result of the reference — zero padding, then the lines of row 4097, row 0, column 4097 and column 0
  written over it in that order — is the specification's padded field.  A cell of column 0 or 4097 in a valid row holds
  the column line written last; in row 0 or 4097 it is a corner, which no line covers (the column lines span rows
  1 … 4096 and the row lines columns 1 … 4096), so it keeps the padding's zero.  A cell of a valid column holds the row
  line in rows 0 and 4097 and the field itself in between.  The run then ends with the result buffer at that array.
-/
import proofs.«166649_j66305705115790_1_alg».proof.Proof.RefStages

noncomputable section

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.Read

namespace Cert.RefPadded

/-! ## The specification's rows at an index with literal coordinates -/

section rows
variable {F : FTy → Type} [FloatOps F]

theorem ix3_ext {n0 n1 n2 : Nat} {a a' : Fin n0} {b b' : Fin n1} {c c' : Fin n2}
    (ha : a.val = a'.val) (hb : b.val = b'.val) (hc : c.val = c'.val) : ix3 a b c = ix3 a' b' c' := by
  rw [Fin.ext ha, Fin.ext hb, Fin.ext hc]

theorem rows_low (arr : Cert.Spec.SArr.Idx → F .f32) (cst fct : Cert.Spec.SCoef.Idx → F .f32)
    (a : Fin 4) (b : Fin 4098) (c : Fin 4096) (hb : b.val = 0) :
    Cert.Spec.rows arr cst fct (ix3 a b c)
      = Cert.Spec.ghost (cst (ix2 (0 : Fin 2) (0 : Fin 2))) (fct (ix2 (0 : Fin 2) (0 : Fin 2)))
          (arr (ix3 a (⟨0, by decide⟩ : Fin 4096) c)) := by
  unfold Cert.Spec.rows
  exact if_pos hb

theorem rows_high (arr : Cert.Spec.SArr.Idx → F .f32) (cst fct : Cert.Spec.SCoef.Idx → F .f32)
    (a : Fin 4) (b : Fin 4098) (c : Fin 4096) (hb : b.val = 4097) :
    Cert.Spec.rows arr cst fct (ix3 a b c)
      = Cert.Spec.ghost (cst (ix2 (0 : Fin 2) (1 : Fin 2))) (fct (ix2 (0 : Fin 2) (1 : Fin 2)))
          (arr (ix3 a (⟨4095, by decide⟩ : Fin 4096) c)) := by
  unfold Cert.Spec.rows
  exact (if_neg (show ¬ b.val = 0 by omega)).trans (if_pos hb)

theorem rows_mid (arr : Cert.Spec.SArr.Idx → F .f32) (cst fct : Cert.Spec.SCoef.Idx → F .f32)
    (a : Fin 4) (b : Fin 4098) (c : Fin 4096) (h0 : ¬ b.val = 0) (h1 : ¬ b.val = 4097) :
    Cert.Spec.rows arr cst fct (ix3 a b c)
      = arr (ix3 a (⟨(b.val - 1) % 4096, Nat.mod_lt _ (by decide)⟩ : Fin 4096) c) := by
  unfold Cert.Spec.rows
  exact (if_neg h0).trans (if_neg h1)

end rows

/-! ## The result -/

/-- At the extended reals the integer zero converted is the zero every corner holds. -/
theorem sitofp_zero_eq : FloatOps.sitofp (F := Ideal) .f32 (0#32 : BitVec 32) = Cert.Spec.zero (F := Ideal) := by
  show (((0#32 : BitVec 32).toInt : ℝ) : EReal) = Ideal.ofBits .f32 0x00000000#32
  rw [Ideal.ofBits_zero_f32]; simp

/-- The reference's result is the padded field: the same operations in the same order, cell by cell. -/
theorem result_eq (x0 : (⟨S4x4096x4096, .f32⟩ : BufTy).Contents (Elt Ideal)) (x1 x2 : (⟨S2x2, .f32⟩ : BufTy).Contents (Elt Ideal)) :
    val_main_v56 (F := Ideal) x0 x1 x2 = Cert.Spec.padded (F := Ideal) x0 x1 x2 := by
  funext j
  have hb : (j 1).val < 4098 := (j 1).isLt
  have hc : (j 2).val < 4098 := (j 2).isLt
  unfold Cert.Spec.padded Cert.Spec.cols
  by_cases c0 : (j 2).val = 0
  · rw [if_pos c0]
    by_cases bb : (j 1).val = 0 ∨ (j 1).val = 4097
    · -- a corner of column 0: nothing is written over the padding
      rw [if_pos bb, v56_apply, dif_neg (show ¬((j 2).val = 0 ∧ 1 ≤ (j 1).val ∧ (j 1).val < 1 + 4096) by omega),
        v42_apply, dif_neg (show ¬((j 2).val = 4097 ∧ 1 ≤ (j 1).val ∧ (j 1).val < 1 + 4096) by omega),
        v28_apply, dif_neg (show ¬((j 1).val = 0 ∧ 1 ≤ (j 2).val ∧ (j 2).val < 1 + 4096) by omega),
        v14_apply, dif_neg (show ¬((j 1).val = 4097 ∧ 1 ≤ (j 2).val ∧ (j 2).val < 1 + 4096) by omega),
        v0_frame x0 j (Or.inl bb), sitofp_zero_eq]
    · -- column 0, a valid row: the last scatter's line
      rw [if_neg bb, v56_apply, dif_pos (show (j 2).val = 0 ∧ 1 ≤ (j 1).val ∧ (j 1).val < 1 + 4096 by omega), v52_eq,
        rows_mid _ _ _ _ (⟨(j 1).val, (j 1).isLt⟩ : Fin 4098) _ (show ¬ (j 1).val = 0 by omega) (show ¬ (j 1).val = 4097 by omega)]
      refine congrArg (Cert.Spec.ghost _ _) (congrArg x0 (ix3_ext rfl ?_ rfl))
      show (j 1).val - 1 = ((j 1).val - 1) % 4096
      omega
  · rw [if_neg c0]
    by_cases c1 : (j 2).val = 4097
    · rw [if_pos c1]
      by_cases bb : (j 1).val = 0 ∨ (j 1).val = 4097
      · -- a corner of column 4097
        rw [if_pos bb, v56_apply, dif_neg (show ¬((j 2).val = 0 ∧ 1 ≤ (j 1).val ∧ (j 1).val < 1 + 4096) by omega),
          v42_apply, dif_neg (show ¬((j 2).val = 4097 ∧ 1 ≤ (j 1).val ∧ (j 1).val < 1 + 4096) by omega),
          v28_apply, dif_neg (show ¬((j 1).val = 0 ∧ 1 ≤ (j 2).val ∧ (j 2).val < 1 + 4096) by omega),
          v14_apply, dif_neg (show ¬((j 1).val = 4097 ∧ 1 ≤ (j 2).val ∧ (j 2).val < 1 + 4096) by omega),
          v0_frame x0 j (Or.inl bb), sitofp_zero_eq]
      · -- column 4097, a valid row: the third scatter's line
        rw [if_neg bb, v56_apply, dif_neg (show ¬((j 2).val = 0 ∧ 1 ≤ (j 1).val ∧ (j 1).val < 1 + 4096) by omega),
          v42_apply, dif_pos (show (j 2).val = 4097 ∧ 1 ≤ (j 1).val ∧ (j 1).val < 1 + 4096 by omega), v38_eq,
          rows_mid _ _ _ _ (⟨(j 1).val, (j 1).isLt⟩ : Fin 4098) _ (show ¬ (j 1).val = 0 by omega) (show ¬ (j 1).val = 4097 by omega)]
        refine congrArg (Cert.Spec.ghost _ _) (congrArg x0 (ix3_ext rfl ?_ rfl))
        show (j 1).val - 1 = ((j 1).val - 1) % 4096
        omega
    · -- a valid column: the rows' value
      rw [if_neg c1, v56_apply, dif_neg (show ¬((j 2).val = 0 ∧ 1 ≤ (j 1).val ∧ (j 1).val < 1 + 4096) by omega),
        v42_apply, dif_neg (show ¬((j 2).val = 4097 ∧ 1 ≤ (j 1).val ∧ (j 1).val < 1 + 4096) by omega), v28_apply]
      by_cases b0 : (j 1).val = 0
      · rw [dif_pos (show (j 1).val = 0 ∧ 1 ≤ (j 2).val ∧ (j 2).val < 1 + 4096 by omega), v24_eq, rows_low _ _ _ _ (⟨(j 1).val, (j 1).isLt⟩ : Fin 4098) _ b0]
        refine congrArg (Cert.Spec.ghost _ _) (congrArg x0 (ix3_ext rfl rfl ?_))
        show (j 2).val - 1 = ((j 2).val - 1) % 4096
        omega
      · rw [dif_neg (show ¬((j 1).val = 0 ∧ 1 ≤ (j 2).val ∧ (j 2).val < 1 + 4096) by omega), v14_apply]
        by_cases b1 : (j 1).val = 4097
        · rw [dif_pos (show (j 1).val = 4097 ∧ 1 ≤ (j 2).val ∧ (j 2).val < 1 + 4096 by omega), v10_eq, rows_high _ _ _ _ (⟨(j 1).val, (j 1).isLt⟩ : Fin 4098) _ b1]
          refine congrArg (Cert.Spec.ghost _ _) (congrArg x0 (ix3_ext rfl rfl ?_))
          show (j 2).val - 1 = ((j 2).val - 1) % 4096
          omega
        · rw [dif_neg (show ¬((j 1).val = 4097 ∧ 1 ≤ (j 2).val ∧ (j 2).val < 1 + 4096) by omega),
            v0_inside x0 j (by omega) (by omega), rows_mid _ _ _ _ (⟨(j 1).val, (j 1).isLt⟩ : Fin 4098) _ b0 b1]
          exact congrArg x0 (ix3_ext rfl (show (j 1).val - 1 = ((j 1).val - 1) % 4096 by omega)
            (show (j 2).val - 1 = ((j 2).val - 1) % 4096 by omega))

/-! ## The run -/

/-- Every execution of the reference ends with the result buffer at the padded field of the arguments, the arguments
    unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
      r.2.mem ((c.tc : Thread Cert.ReferenceIdeal.nD Cert.ReferenceIdeal.τ).loc Cert.ReferenceIdeal.main_v56)
          = Cert.Spec.padded (F := Ideal)
              (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2)) :=
  (θ_run (Cert.ReferenceIdeal.defs (F := Ideal)) _ _).mono
    (fun _ h c => ⟨(h c).1.trans ((val_main_v56_eq _ _ _).trans (result_eq _ _ _)), (h c).2⟩)
    (Cert.ReferenceIdeal.Value.run (F := Ideal) m ρ)

end Cert.RefPadded

end
-- ==== Proof.lean ====
/-
  A field of four components on a 4096 × 4096 grid is surrounded by one layer of ghost cells: next to
  a valid cell `x` the affine virtual point `c + f · x`, zero in the four corners of every component
  (`Cert.Spec.padded`).

  The kernel program first adds the ghost rows with host operations and then pads the columns in one
  region, a tile of 256 rows per grid point; the reference pads with zeros and overwrites the four
  boundary lines one after the other.  Both end holding `Cert.Spec.padded` of their arguments: the
  same additions and multiplications of the same cells, so the equality needs no law of arithmetic
  and no finiteness.  The kernel's run, read at the bit level and over the extended reals, also gives
  its two frames; the reference's frame is its run with the result dropped; the idealization
  rewrote no operation.
-/
import proofs.«166649_j66305705115790_1_alg».proof.Defs
import proofs.«166649_j66305705115790_1_alg».proof.Proof.Gen.Kernel
import proofs.«166649_j66305705115790_1_alg».proof.Proof.Gen.KernelIdeal
import proofs.«166649_j66305705115790_1_alg».proof.Proof.Gen.ReferenceIdeal
import proofs.«166649_j66305705115790_1_alg».proof.Proof.Gen.Pre_finite_inputs
import proofs.«166649_j66305705115790_1_alg».proof.Proof.Gen.ReferenceIdeal.Read
import proofs.«166649_j66305705115790_1_alg».proof.Proof.KBFrame
import proofs.«166649_j66305705115790_1_alg».proof.Proof.KIFrame
import proofs.«166649_j66305705115790_1_alg».proof.Proof.KIRows
import proofs.«166649_j66305705115790_1_alg».proof.Proof.RefPadded
import Idealize.ShloMosaic.Adequacy
import Idealize.ShloMosaic.Init

noncomputable section

namespace Cert.Proof

open Idealize.ShloMosaic Idealize.ShloMosaic.TcCoe Idealize.SL.Sem

/-- The kernel program at the bit level runs and leaves its arguments alone. -/
theorem frame_k : Cert.frame_Kernel := fun m ρ _ => Cert.Kernel.Hand.frame (F := Bits) m ρ

/-- So does its idealization, over the extended reals. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.RefPadded.run m ρ)

/-- The idealization rewrote no operation. -/
theorem preserves : Cert.preserves_Kernel_KernelIdeal := trivial

/-- What the region computes from the row-padded array the host operations built is the padded
    field of the arguments: columns after rows. -/
theorem result_eq (m : (ℓ : Loc Cert.KernelIdeal.nD Cert.KernelIdeal.τ Cert.KernelIdeal.sig) → Buf (Elt Ideal) ℓ) (c : Dev Cert.KernelIdeal.nD) :
    Cert.KernelIdeal.Hand.result (F := Ideal) m c
      = Cert.Spec.padded (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  unfold Cert.KernelIdeal.Hand.result Cert.Spec.padded
  rw [Cert.KernelIdeal.Hand.V_main_v18, Cert.KernelIdeal.Hand.V_main_arg1, Cert.KernelIdeal.Hand.V_main_arg2]

/-- Both programs, from memories agreeing on the arguments, end holding the padded field of those
    arguments. -/
theorem algebraic : Cert.algebraic_KernelIdeal_ReferenceIdeal := by
  intro m ρ m' ρ' _ hagree
  refine ⟨fun c => Cert.Spec.padded (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun _ h c => ⟨(h c).1.trans (result_eq m c), (h c).2⟩)
      (Cert.KernelIdeal.Hand.run_value (F := Ideal) m ρ)
  · refine (θ_run Cert.ReferenceIdeal.defs _ _).mono (fun _ h c => ⟨(h c).1.trans ?_, (h c).2⟩) (Cert.RefPadded.run m' ρ')
    rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
